-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_arg13 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg8 : FVec F S128x64 .f32) (main_arg9 : FVec F S64 .f32) (main_arg10 : FVec F S64 .f32) (main_arg11 : FVec F S64 .f32) (main_arg12 : FVec F S64 .f32) (main_arg13 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x64 .f32) (main_arg9 : FVec F S64 .f32) (main_arg10 : FVec F S64 .f32) (main_arg11 : FVec F S64 .f32) (main_arg12 : FVec F S64 .f32) (main_arg13 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 68
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x64, .f32⟩
  | .hbm, ⟨66, _⟩ => ⟨S1x64, .f32⟩
  | .hbm, ⟨67, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S128x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg9_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem9_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v44) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 168
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x64, .f32⟩
  | 9 => ⟨S64, .f32⟩
  | 10 => ⟨S64, .f32⟩
  | 11 => ⟨S64, .f32⟩
  | 12 => ⟨S64, .f32⟩
  | 13 => ⟨S64, .f32⟩
  | 14 => ⟨S1x1600000, .i32⟩
  | 15 => ⟨S1600000, .i32⟩
  | 16 => ⟨S1x1600000, .i32⟩
  | 17 => ⟨S1600000, .i32⟩
  | 18 => ⟨S100000x128, .f32⟩
  | 19 => ⟨S_, .f32⟩
  | 20 => ⟨S1600000, .f32⟩
  | 21 => ⟨S_, .f32⟩
  | 22 => ⟨S100000, .f32⟩
  | 23 => ⟨S1600000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1600000, .i32⟩
  | 31 => ⟨S1600000, .i1⟩
  | 32 => ⟨S_, .i32⟩
  | 33 => ⟨S1600000, .i32⟩
  | 34 => ⟨S1600000, .i32⟩
  | 35 => ⟨S1600000, .i32⟩
  | 36 => ⟨S1600000x1, .i32⟩
  | 37 => ⟨S1600000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000, .f32⟩
  | 56 => ⟨S1600000, .f32⟩
  | 57 => ⟨S1600000x1, .f32⟩
  | 58 => ⟨S1600000x128, .f32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000, .f32⟩
  | 65 => ⟨S100000x1, .f32⟩
  | 66 => ⟨S100000x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S128, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x1600000, .i32⟩
  | 92 => ⟨S1600000, .i32⟩
  | 93 => ⟨S1x1600000, .i32⟩
  | 94 => ⟨S1600000, .i32⟩
  | 95 => ⟨S100000x64, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .f32⟩
  | 6 => ⟨S1600000x1, .f32⟩
  | 7 => ⟨S1600000x64, .f32⟩
  | 8 => ⟨S1600000x64, .f32⟩
  | 9 => ⟨S_, .f32⟩
  | 10 => ⟨S100000x64, .f32⟩
  | 11 => ⟨S1600000x1, .i32⟩
  | 12 => ⟨S100000x64, .f32⟩
  | 13 => ⟨S100000, .f32⟩
  | 14 => ⟨S100000x1, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | 21 => ⟨S1x64, .f32⟩
  | 22 => ⟨S100000x64, .f32⟩
  | 23 => ⟨S100000x64, .f32⟩
  | 24 => ⟨S_, .f32⟩
  | 25 => ⟨S64, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call0_cst : Ref sig .tc := ⟨.hbm, 88, rfl⟩
abbrev main_call0_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_9 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_11 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_12 : Ref sig .tc := ⟨.hbm, 106, rfl⟩
abbrev main_v76 : Ref sig .tc := ⟨.hbm, 107, rfl⟩
abbrev main_v77 : Ref sig .tc := ⟨.hbm, 108, rfl⟩
abbrev main_c_13 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c_14 : Ref sig .tc := ⟨.hbm, 115, rfl⟩
abbrev main_v83 : Ref sig .tc := ⟨.hbm, 116, rfl⟩
abbrev main_v84 : Ref sig .tc := ⟨.hbm, 117, rfl⟩
abbrev main_c_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c_16 : Ref sig .tc := ⟨.hbm, 124, rfl⟩
abbrev main_v90 : Ref sig .tc := ⟨.hbm, 125, rfl⟩
abbrev main_v91 : Ref sig .tc := ⟨.hbm, 126, rfl⟩
abbrev main_c_17 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_cst_19 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_call1_cst : Ref sig .tc := ⟨.hbm, 165, rfl⟩
abbrev main_call1_v0 : Ref sig .tc := ⟨.hbm, 166, rfl⟩
abbrev main_v127 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  THE RUN OF THE THREE-KERNEL PROGRAM, WITH ITS RESULT NAMED.

  Every weakly fair execution from any memory with zero counters terminates without a fault; the argument arrays end
  as launched, and the result array ends at what the last boundary of the program holds there: the contents `W6`, the
  fold of the three host stretches and the three kernels' write-backs over the launch memory.  The statement is the
  frame of the program with one more conjunct, the result buffer read against the last boundary's contents like every
  argument buffer.
-/
import proofs.«133159_j49976239456719_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array read at the last boundary's contents. -/
theorem run_value : θ_run defs (onTc (τ := τ) (main (F := F))) ⟨m, fun _ => 0, ρ⟩ (fun r => ∀ c : Dev nD,
      r.2.mem ((c.tc : Thread nD τ).loc main_v44) = W6 m ρ c (Proc.devRef .tc main_v44)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v44 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Gen

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.GcnSpec.lean ====
/-
  TWO GRAPH-CONVOLUTION LAYERS, EACH FOLLOWED BY A BATCH NORMALISATION AND A RECTIFIER, as functions of the arguments, at
  the ideal values (extended reals).

  Nodes are rows `p < N`; an edge `e < E` has a source row `sI e` (already wrapped and clamped into range) and a signed
  destination `dT e : ℤ`; it contributes to node `p` exactly when `dT e = p`.  The degree of `p` counts those edges
  plus one (the self loop) and `dv p` is its inverse square root.

  One layer with input features `H p c` (already multiplied by the weights) aggregates
      Σ_{e → p} H (sI e) c · (dv (sI e) · dv (dC e))  +  H p c · (dv p · dv p)              (`aggR`)
  where `dC e` is the destination row read back through a wrap and a clamp; the other program scales each row once,
  `H' q c = H q c · dv q`, sums the scaled rows of the neighbours, and multiplies the destination's factor afterwards:
      dv p · ( Σ_{e → p} H' (sI e) c  +  H' p c )                                           (`aggK`).
  The two agree when `dv p` is a non-negative finite number and `dC e = p` for every edge into `p` (`agg_eq`): a
  non-negative finite factor distributes over a sum of extended reals, whatever the summands are.

  What follows the aggregation is the same in both programs, entry by entry: add the bias, subtract the running mean,
  multiply by the inverse square root of the running variance plus ε, by the scale, add the shift, and take the maximum
  with zero (`post`).
-/
import Idealize.ShloMosaic.Lib.ValueIdx
import Idealize.ShloMosaic.PureOps.Ideal.Laws
import proofs.«133159_j49976239456719_2_alg».proof.Proof.LibNormSum

noncomputable section

open scoped BigOperators

namespace Cert.Gcn

open Idealize.ShloMosaic Idealize.ShloMosaic.ValueIdx

variable {N E : ℕ}

/-- The edges whose destination is node `p`. -/
def into (dT : Fin E → ℤ) (p : Fin N) : Finset (Fin E) := Finset.univ.filter (fun e => dT e = (p.val : ℤ))

/-- The inverse square root of the degree (the edges into `p`, plus the self loop), from a zero start and unit weights. -/
def dinv (dT : Fin E → ℤ) (p : Fin N) : EReal := Ideal.rsqrt ((0 + ∑ _e ∈ into dT p, (1 : EReal)) + 1)

/-- It is a non-negative finite number. -/
theorem dinv_nonneg_ne_top (dT : Fin E → ℤ) (p : Fin N) : 0 ≤ dinv dT p ∧ dinv dT p ≠ ⊤ :=
  Cert.NormSum.rsqrt_count_nonneg_ne_top (into dT p)

/-- The aggregation with both end-point factors inside the sum. -/
def aggR {C : ℕ} (dv : Fin N → EReal) (sI : Fin E → Fin N) (dT : Fin E → ℤ) (dC : Fin E → Fin N)
    (H : Fin N → Fin C → EReal) (p : Fin N) (c : Fin C) : EReal :=
  (0 + ∑ e ∈ into dT p, H (sI e) c * (dv (sI e) * dv (dC e))) + H p c * (dv p * dv p)

/-- The aggregation of rows scaled once, the destination's factor multiplied afterwards. -/
def aggK {C : ℕ} (dv : Fin N → EReal) (sI : Fin E → Fin N) (dT : Fin E → ℤ)
    (H : Fin N → Fin C → EReal) (p : Fin N) (c : Fin C) : EReal :=
  dv p * ((0 + ∑ e ∈ into dT p, H (sI e) c * dv (sI e)) + H p c * dv p)

/-- The two aggregations agree: the destination's factor is non-negative and finite, so it distributes over the sum,
    and an edge into `p` reads the factor of `p`. -/
theorem agg_eq {C : ℕ} (dv : Fin N → EReal) (hdv : ∀ p, 0 ≤ dv p ∧ dv p ≠ ⊤) (sI : Fin E → Fin N) (dT : Fin E → ℤ)
    (dC : Fin E → Fin N) (hd : ∀ e p, dT e = (p.val : ℤ) → dC e = p) (H : Fin N → Fin C → EReal) (p : Fin N) (c : Fin C) :
    aggK dv sI dT H p c = aggR dv sI dT dC H p c :=
  Cert.NormSum.norm_pull (into dT p) (fun e => H (sI e) c) (fun e => dv (sI e)) (fun e => dv (dC e)) (H p c) (dv p)
    (hdv p).1 (hdv p).2 (fun e he => by rw [hd e p (Finset.mem_filter.mp he).2])

/-- What follows an aggregated entry `a`: bias, running mean, inverse square root of the running variance plus ε,
    scale, shift, rectifier. -/
def post (eps zero : EReal) (a b rm rv g be : EReal) : EReal :=
  max ((((a + b) - rm) * Ideal.rsqrt (rv + eps)) * g + be) zero

/-- A rank-2 array given by a function of its two coordinates. -/
abbrev arr2 {n0 n1 : ℕ} {α : Type} (f : Fin n0 → Fin n1 → α) : (⟨2, ![n0, n1]⟩ : Shape).Idx → α :=
  fun i => f ⟨(i 0).val, idx2_lt0 i⟩ ⟨(i 1).val, idx2_lt1 i⟩

/-- A product with a weight matrix: row `p`, column `c`. -/
def dense {K C : ℕ} (X : Fin N → Fin K → EReal) (W : (⟨2, ![K, C]⟩ : Shape).Idx → EReal) (p : Fin N) (c : Fin C) : EReal :=
  ∑ k : Fin K, X p k * W (ix2 k c)

end Cert.Gcn

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«133159_j49976239456719_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«133159_j49976239456719_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibColumn.lean ====
/-
  Two layout operations read at an index, for a per-row quantity kept as a column (a sum over the last axis with the
  reduced axis kept as a unit axis): the cast of a vector of `a` entries to an `a`-by-`1` column, and the broadcast of
  such a column across `b` columns. Both are stated over coordinates of literal extents.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to `[a, 1]` reads, at `(i, u)`, the operand at `i`, whatever the unit coordinate `u`: the two
    indices have the same row-major position, `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.KBody.lean ====
/-
  THE THREE KERNEL BODIES, READ AT ONE ENTRY, at the ideal values.

  Each body stores one block; its stored value is a pure function of the blocks it loads.  Read at row `r` and column
  `c` of the block:
  • the first body is the product of the row `r` of the feature block with column `c` of the weights, times the row's
    inverse-square-root degree (kept as a one-column block);
  • the last body is the normalised, rectified entry `post` of the sum of the two feature blocks at `(r, c)` scaled by the
    row's factor, with the five per-column parameters read from one-row blocks;
  • the middle body is the same rectified entry for every column `k`, multiplied into the second weights and scaled
    by the row's factor again.
  A change of float format is the identity at the ideal values, a block cast to its own shape is itself, a one-column
  block broadcast over the columns reads its row, a one-row block broadcast over the rows reads its column.
-/
import proofs.«133159_j49976239456719_2_alg».proof.Proof.Gen.KernelIdeal.Skeleton
import proofs.«133159_j49976239456719_2_alg».proof.Proof.GcnSpec
import proofs.«133159_j49976239456719_2_alg».proof.Proof.LibBlockDot
import proofs.«133159_j49976239456719_2_alg».proof.Proof.LibColumn
import Idealize.ShloMosaic.Lib.ValueLayout
import Idealize.ShloMosaic.Lib.Pipeline.Value

noncomputable section

open scoped BigOperators

namespace Cert.KernelIdeal.Body

open Idealize.ShloMosaic Idealize.ShloMosaic.ValueIdx Idealize.ShloMosaic.ColumnLayout Cert.KernelIdeal Cert.KernelIdeal.Gen

/-- ε of the normalisation, as the ideal value of its word. -/
abbrev EPS : EReal := Ideal.ofBits .f32 0x3727C5AC#32
/-- The zero word's ideal value. -/
abbrev ZERO : EReal := Ideal.ofBits .f32 0x00000000#32

/-- An inverse square root of a block reads entry by entry. -/
theorem rsqrt_at {s : Shape} {φ : FTy} (a : FVec Ideal s φ) (i : s.Idx) : rsqrt a i = Ideal.rsqrt (a i) := rfl

/-- The first body at `(r, c)`. -/
theorem pay0_at (v0 : Vec Ideal S5000x128 .f32) (v2 : Vec Ideal S128x128 .f32) (v5 : Vec Ideal S5000x1 .f32)
    (r : Fin 5000) (c : Fin 128) :
    k0_pay1 v0 v2 v5 (ix2 r c) = (∑ k : Fin 128, v0 (ix2 r k) * v2 (ix2 k c)) * v5 (ix2 r (0 : Fin 1)) := by
  unfold k0_pay1
  rw [mulf_apply, shapeCast_self]
  refine congrArg₂ (· * ·) ?_ (broadcastTo_a1_ab_apply v5 _ r c)
  exact Cert.BlockDot.kdot_apply none (truncf .bf16 v0 bitsLt_bf16_f32) (truncf .bf16 v2 bitsLt_bf16_f32) r c

/-- The last body at `(r, c)`. -/
theorem pay2_at (v0 : Vec Ideal S5000x1 .f32) (v2 v4 : Vec Ideal S5000x64 .f32) (v9 v13 v17 v24 v28 : Vec Ideal S1x64 .f32)
    (r : Fin 5000) (c : Fin 64) :
    k2_pay1 v0 v2 v4 v9 v13 v17 v24 v28 (ix2 r c)
      = Cert.Gcn.post EPS ZERO (v0 (ix2 r (0 : Fin 1)) * (v2 (ix2 r c) + v4 (ix2 r c)))
          (v9 (ix2 (0 : Fin 1) c)) (v13 (ix2 (0 : Fin 1) c)) (v17 (ix2 (0 : Fin 1) c)) (v24 (ix2 (0 : Fin 1) c)) (v28 (ix2 (0 : Fin 1) c)) := by
  unfold k2_pay1 Cert.Gcn.post
  simp only [shapeCast_self]
  rw [maximumf_apply, addf_apply, mulf_apply, mulf_apply, subf_apply, addf_apply, mulf_apply, addf_apply]
  rw [broadcastTo_a1_ab_apply v0 _ r c, broadcastTo_1b_ab_apply v9 _ r c, broadcastTo_1b_ab_apply v13 _ r c,
    broadcastTo_1b_ab_apply v24 _ r c, broadcastTo_1b_ab_apply v28 _ r c, broadcastTo_1b_ab_apply _ _ r c]
  rfl

/-- The rectified entry the middle body computes before its product, at `(r, k)`. -/
def z1 (v0 : Vec Ideal S5000x1 .f32) (v2 v4 : Vec Ideal S5000x128 .f32) (v9 v13 v17 v24 v28 : Vec Ideal S1x128 .f32)
    (r : Fin 5000) (k : Fin 128) : EReal :=
  Cert.Gcn.post EPS ZERO (v0 (ix2 r (0 : Fin 1)) * (v2 (ix2 r k) + v4 (ix2 r k)))
    (v9 (ix2 (0 : Fin 1) k)) (v13 (ix2 (0 : Fin 1) k)) (v17 (ix2 (0 : Fin 1) k)) (v24 (ix2 (0 : Fin 1) k)) (v28 (ix2 (0 : Fin 1) k))

/-- The middle body's product at `(r, c)`: the rectified row times column `c` of the second weights. -/
theorem pay1b_at (v0 : Vec Ideal S5000x1 .f32) (v2 v4 : Vec Ideal S5000x128 .f32) (v9 v13 v17 v24 v28 : Vec Ideal S1x128 .f32)
    (v35 : Vec Ideal S128x64 .f32) (r : Fin 5000) (c : Fin 64) :
    k1_pay2 v0 v2 v4 v9 v13 v17 v24 v28 v35 (ix2 r c) = ∑ k : Fin 128, z1 v0 v2 v4 v9 v13 v17 v24 v28 r k * v35 (ix2 k c) := by
  unfold k1_pay2
  refine (Cert.BlockDot.kdot_apply none _ (truncf .bf16 v35 bitsLt_bf16_f32) r c).trans ?_
  refine Finset.sum_congr rfl fun k _ => congrArg₂ (· * ·) ?_ rfl
  unfold z1 Cert.Gcn.post
  rw [truncf_apply]
  simp only [shapeCast_self]
  rw [maximumf_apply, addf_apply, mulf_apply, mulf_apply, subf_apply, addf_apply, mulf_apply, addf_apply]
  rw [broadcastTo_a1_ab_apply v0 _ r k, broadcastTo_1b_ab_apply v9 _ r k, broadcastTo_1b_ab_apply v13 _ r k,
    broadcastTo_1b_ab_apply v24 _ r k, broadcastTo_1b_ab_apply v28 _ r k, broadcastTo_1b_ab_apply _ _ r k]
  rfl

/-- The middle body's stored value at `(r, c)`: that product times the row's factor. -/
theorem pay1a_at (v37 : FVec Ideal S5000x64 .f32) (v38 : Vec Ideal S5000x1 .f32) (r : Fin 5000) (c : Fin 64) :
    k1_pay1 v37 v38 (ix2 r c) = v37 (ix2 r c) * v38 (ix2 r (0 : Fin 1)) := by
  unfold k1_pay1
  rw [mulf_apply, shapeCast_self]
  exact congrArg₂ (· * ·) rfl (broadcastTo_a1_ab_apply v38 _ r c)

end Cert.KernelIdeal.Body

end
-- ==== Proof.Region0.lean ====
/-
  THE FIRST KERNEL, FROM BLOCKS TO THE WHOLE ARRAY, at the ideal values.

  The grid has 20 points; at point `t` the node features and the one-column inverse-square-root degrees are read in rows
  `5000·t … 5000·t + 4999`, the weights whole, and the output block is written back to the same rows.  Entry
  `(5000·t + r, q)` of the output is row `5000·t + r` of the features times column `q` of the weights, times that row's
  factor: `G0` of the arrays as the kernel finds them.  The 20 blocks cover all 100000 rows.
-/
import proofs.«133159_j49976239456719_2_alg».proof.Proof.Gen.KernelIdeal.Frame
import proofs.«133159_j49976239456719_2_alg».proof.Proof.KBody

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The array the kernel leaves, entry by entry, from the arrays it finds: the features times the weights, each row
    scaled by its factor. -/
def G0 (X : S100000x128.Idx → EReal) (W : S128x128.Idx → EReal) (dv : S100000x1.Idx → EReal) : S100000x128.Idx → EReal :=
  arr2 fun p q => (∑ k : Fin 128, X (ix2 p k) * W (ix2 k q)) * dv (ix2 p (0 : Fin 1))

/-- The block index maps over the grid: the row-blocked windows sit at block row `t`, block column 0; the windows that
    hold a whole array at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt20 (t : Fin cfg0.N) : t.val < 20 := t.isLt.trans_eq N_0

/-- Global row of block row `r` at point `t`. -/
abbrev row (t : Fin cfg0.N) (r : Fin 5000) : Fin 100000 := ⟨t.val * 5000 + r.val, by have := lt20 t; have := r.isLt; omega⟩

theorem read0 (c : Dev nD) (t : Fin cfg0.N) (r : Fin 5000) (q : Fin 128) :
    iblk0 V c 0 t (ix2 r q) = (V c main_arg0 : S100000x128.Idx → EReal) (ix2 (row t r) q) := by
  obtain ⟨e0, e1, -⟩ := idx_facts t
  show (V c main_arg0 : S100000x128.Idx → EReal) (((cfg0.win 0).blk t).view.emb (ix2 r q)) = _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * q.val = q.val; omega

theorem read1 (c : Dev nD) (t : Fin cfg0.N) (k : Fin 128) (q : Fin 128) :
    iblk0 V c 1 t (ix2 k q) = (V c main_arg2 : S128x128.Idx → EReal) (ix2 k q) := by
  obtain ⟨-, -, e0, e1, -⟩ := idx_facts t
  show (V c main_arg2 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

theorem read2 (c : Dev nD) (t : Fin cfg0.N) (r : Fin 5000) :
    iblk0 V c 2 t (ix2 r (0 : Fin 1)) = (V c main_v11 : S100000x1.Idx → EReal) (ix2 (row t r) (0 : Fin 1)) := by
  obtain ⟨-, -, -, -, e0, e1, -⟩ := idx_facts t
  show (V c main_v11 : S100000x1.Idx → EReal) (((cfg0.win 2).blk t).view.emb (ix2 r (0 : Fin 1))) = _
  refine congrArg _ (funext fun a => Fin.ext ?_)
  match a with
  | ⟨0, _⟩ => show win0_2.index t (0 : Fin 2) * 5000 + 1 * r.val = t.val * 5000 + r.val; omega
  | ⟨1, _⟩ => show win0_2.index t (1 : Fin 2) * 1 + 1 * 0 = 0; omega

/-- Where entry `(r, q)` of the output block at point `t` sits in the output array. -/
theorem emb_out (t : Fin cfg0.N) (r : Fin 5000) (q : Fin 128) :
    ((cfg0.win 3).blk t).view.emb (ix2 r q) = (ix2 (row t r) q : S100000x128.Idx) := by
  obtain ⟨-, -, -, -, -, -, e0, e1⟩ := idx_facts t
  refine funext fun a => Fin.ext ?_
  match a with
  | ⟨0, _⟩ => show win0_3.index t (0 : Fin 2) * 5000 + 1 * r.val = t.val * 5000 + r.val; omega
  | ⟨1, _⟩ => show win0_3.index t (1 : Fin 2) * 128 + 1 * q.val = q.val; omega

/-- WHAT POINT `t` WRITES BACK is block `t` of the array function of the arrays as the kernel finds them. -/
theorem flushed_eq (c : Dev nD) (t : Fin cfg0.N) :
    (dat0 V c).flushed 3 t = ((cfg0.win 3).blk t).view.read (Elt Ideal) (G0 (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨r, q, rfl⟩ : ∃ (r : Fin 5000) (q : Fin 128), j = ix2 r q := ⟨j 0, j 1, eq_ix2 j⟩
  refine (pay0_at (iblk0 V c 0 t) (iblk0 V c 1 t) (iblk0 V c 2 t) r q).trans ?_
  rw [read2 V c t r, Finset.sum_congr rfl fun k _ => by rw [read0 V c t r k, read1 V c t k q]]
  show _ = (G0 (V c main_arg0) (V c main_arg2) (V c main_v11)) (((cfg0.win 3).blk t).view.emb (ix2 r q))
  rw [emb_out t r q]
  rfl

/-- An index of the array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v12).slice (win0_3.rect t)).set ↔ _
  rw [View.set_slice_whole, Rect.mem_set_unit]
  exact Iff.rfl

/-- Every entry of the output array is in some point's block: the point of row `i₀` is `i₀ / 5000`. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  let t : Fin cfg0.N := ⟨(i 0).val / 5000, by rw [show cfg0.N = 20 from N_0]; omega⟩
  have ht : t.val = (i 0).val / 5000 := rfl
  obtain ⟨-, -, -, -, -, -, e0, e1⟩ := idx_facts t
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE OUTPUT ARRAY AFTER THE KERNEL, whole. -/
theorem final (c : Dev nD) :
    (dat0 V c).arrAt 3 cfg0.N = G0 (V c main_arg0) (V c main_arg2) (V c main_v11) :=
  (dat0 V c).arrAt_eq_of_cover 3 _ (fun t _ => flushed_eq V c t) cover

end Cert.KernelIdeal.Region0

end
-- ==== Proof.Region1.lean ====
/-
  THE MIDDLE KERNEL, FROM BLOCKS TO THE WHOLE ARRAY, at the ideal values.

  The grid has 20 points; at point `t` the neighbour sums, the scaled features and the one-column inverse-square-root
  degrees are read in rows `5000·t … 5000·t + 4999`, the five one-row parameter arrays and the second weights whole, and
  the output block is written back to the same rows.  Entry `(5000·t + r, q)` of the output is the rectified normalised
  row `5000·t + r` times column `q` of the second weights, times that row's factor: `G1` of the arrays as the kernel
  finds them.  The 20 blocks cover all 100000 rows.
-/
import proofs.«133159_j49976239456719_2_alg».proof.Proof.Gen.KernelIdeal.Frame
import proofs.«133159_j49976239456719_2_alg».proof.Proof.KBody

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The array the kernel leaves, entry by entry, from the arrays it finds: the rectified normalised rows times the
    second weights, each row scaled by its factor. -/
def G1 (S Hp : S100000x128.Idx → EReal) (dv : S100000x1.Idx → EReal) (b g be rm rv : S1x128.Idx → EReal)
    (W : S128x64.Idx → EReal) : S100000x64.Idx → EReal :=
  arr2 fun p q => (∑ k : Fin 128, post EPS ZERO (dv (ix2 p (0 : Fin 1)) * (S (ix2 p k) + Hp (ix2 p k)))
      (b (ix2 (0 : Fin 1) k)) (rm (ix2 (0 : Fin 1) k)) (rv (ix2 (0 : Fin 1) k)) (g (ix2 (0 : Fin 1) k)) (be (ix2 (0 : Fin 1) k))
    * W (ix2 k q)) * dv (ix2 p (0 : Fin 1))

/-- The block index maps over the grid: the row-blocked windows sit at block row `t`, block column 0; the windows that
    hold a whole array at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

theorem lt20 (t : Fin cfg1.N) : t.val < 20 := t.isLt.trans_eq N_1

/-- Global row of block row `r` at point `t`. -/
abbrev row (t : Fin cfg1.N) (r : Fin 5000) : Fin 100000 := ⟨t.val * 5000 + r.val, by have := lt20 t; have := r.isLt; omega⟩

theorem read0 (c : Dev nD) (t : Fin cfg1.N) (r : Fin 5000) (q : Fin 128) :
    iblk1 V c 0 t (ix2 r q) = (V c main_v22 : S100000x128.Idx → EReal) (ix2 (row t r) q) := by
  obtain ⟨e0, e1, -⟩ := idx_facts t
  show (V c main_v22 : S100000x128.Idx → EReal) (((cfg1.win 0).blk t).view.emb (ix2 r q)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 128 + 1 * q.val = q.val; omega

theorem read1 (c : Dev nD) (t : Fin cfg1.N) (r : Fin 5000) (q : Fin 128) :
    iblk1 V c 1 t (ix2 r q) = (V c main_v12 : S100000x128.Idx → EReal) (ix2 (row t r) q) := by
  obtain ⟨-, -, e0, e1, -⟩ := idx_facts t
  show (V c main_v12 : S100000x128.Idx → EReal) (((cfg1.win 1).blk t).view.emb (ix2 r q)) = _
  refine congrArg _ (funext fun a => Fin.ext ?_)
  match a with
  | ⟨0, _⟩ => show win1_1.index t (0 : Fin 2) * 5000 + 1 * r.val = t.val * 5000 + r.val; omega
  | ⟨1, _⟩ => show win1_1.index t (1 : Fin 2) * 128 + 1 * q.val = q.val; omega

theorem read2 (c : Dev nD) (t : Fin cfg1.N) (r : Fin 5000) :
    iblk1 V c 2 t (ix2 r (0 : Fin 1)) = (V c main_v11 : S100000x1.Idx → EReal) (ix2 (row t r) (0 : Fin 1)) := by
  obtain ⟨-, -, -, -, e0, e1, -⟩ := idx_facts t
  show (V c main_v11 : S100000x1.Idx → EReal) (((cfg1.win 2).blk t).view.emb (ix2 r (0 : Fin 1))) = _
  refine congrArg _ (funext fun a => Fin.ext ?_)
  match a with
  | ⟨0, _⟩ => show win1_2.index t (0 : Fin 2) * 5000 + 1 * r.val = t.val * 5000 + r.val; omega
  | ⟨1, _⟩ => show win1_2.index t (1 : Fin 2) * 1 + 1 * 0 = 0; omega

theorem read3 (c : Dev nD) (t : Fin cfg1.N) (q : Fin 128) :
    iblk1 V c 3 t (ix2 (0 : Fin 1) q) = (V c main_v23 : S1x128.Idx → EReal) (ix2 (0 : Fin 1) q) := by
  obtain ⟨-, -, -, -, -, -, e0, e1, -⟩ := idx_facts t
  show (V c main_v23 : S1x128.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem read4 (c : Dev nD) (t : Fin cfg1.N) (q : Fin 128) :
    iblk1 V c 4 t (ix2 (0 : Fin 1) q) = (V c main_v24 : S1x128.Idx → EReal) (ix2 (0 : Fin 1) q) := by
  obtain ⟨-, -, -, -, -, -, -, -, e0, e1, -⟩ := idx_facts t
  show (V c main_v24 : S1x128.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem read5 (c : Dev nD) (t : Fin cfg1.N) (q : Fin 128) :
    iblk1 V c 5 t (ix2 (0 : Fin 1) q) = (V c main_v25 : S1x128.Idx → EReal) (ix2 (0 : Fin 1) q) := by
  obtain ⟨-, -, -, -, -, -, -, -, -, -, e0, e1, -⟩ := idx_facts t
  show (V c main_v25 : S1x128.Idx → EReal) (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

theorem read6 (c : Dev nD) (t : Fin cfg1.N) (q : Fin 128) :
    iblk1 V c 6 t (ix2 (0 : Fin 1) q) = (V c main_v26 : S1x128.Idx → EReal) (ix2 (0 : Fin 1) q) := by
  obtain ⟨-, -, -, -, -, -, -, -, -, -, -, -, e0, e1, -⟩ := idx_facts t
  show (V c main_v26 : S1x128.Idx → EReal) (((cfg1.win 6).blk t).view.emb (ix2 (0 : Fin 1) q)) = _
  refine congrArg _ (funext fun a => Fin.ext ?_)
  match a with
  | ⟨0, _⟩ => show win1_6.index t (0 : Fin 2) * 1 + 1 * 0 = 0; omega
  | ⟨1, _⟩ => show win1_6.index t (1 : Fin 2) * 128 + 1 * q.val = q.val; omega

theorem read7 (c : Dev nD) (t : Fin cfg1.N) (q : Fin 128) :
    iblk1 V c 7 t (ix2 (0 : Fin 1) q) = (V c main_v27 : S1x128.Idx → EReal) (ix2 (0 : Fin 1) q) := by
  obtain ⟨-, -, -, -, -, -, -, -, -, -, -, -, -, -, e0, e1, -⟩ := idx_facts t
  show (V c main_v27 : S1x128.Idx → EReal) (((cfg1.win 7).blk t).view.emb (ix2 (0 : Fin 1) q)) = _
  refine congrArg _ (funext fun a => Fin.ext ?_)
  match a with
  | ⟨0, _⟩ => show win1_7.index t (0 : Fin 2) * 1 + 1 * 0 = 0; omega
  | ⟨1, _⟩ => show win1_7.index t (1 : Fin 2) * 128 + 1 * q.val = q.val; omega

theorem read8 (c : Dev nD) (t : Fin cfg1.N) (k : Fin 128) (q : Fin 64) :
    iblk1 V c 8 t (ix2 k q) = (V c main_arg8 : S128x64.Idx → EReal) (ix2 k q) := by
  obtain ⟨-, -, -, -, -, -, -, -, -, -, -, -, -, -, -, -, e0, e1, -⟩ := idx_facts t
  show (V c main_arg8 : S128x64.Idx → EReal) (((cfg1.win 8).blk t).view.emb (ix2 k q)) = _
  refine congrArg _ (funext fun a => Fin.ext ?_)
  match a with
  | ⟨0, _⟩ => show win1_8.index t (0 : Fin 2) * 128 + 1 * k.val = k.val; omega
  | ⟨1, _⟩ => show win1_8.index t (1 : Fin 2) * 64 + 1 * q.val = q.val; omega

/-- Where entry `(r, q)` of the output block at point `t` sits in the output array. -/
theorem emb_out (t : Fin cfg1.N) (r : Fin 5000) (q : Fin 64) :
    ((cfg1.win 9).blk t).view.emb (ix2 r q) = (ix2 (row t r) q : S100000x64.Idx) := by
  obtain ⟨-, -, -, -, -, -, -, -, -, -, -, -, -, -, -, -, -, -, e0, e1⟩ := idx_facts t
  refine funext fun a => Fin.ext ?_
  match a with
  | ⟨0, _⟩ => show win1_9.index t (0 : Fin 2) * 5000 + 1 * r.val = t.val * 5000 + r.val; omega
  | ⟨1, _⟩ => show win1_9.index t (1 : Fin 2) * 64 + 1 * q.val = q.val; omega

/-- WHAT POINT `t` WRITES BACK is block `t` of the array function of the arrays as the kernel finds them. -/
theorem flushed_eq (c : Dev nD) (t : Fin cfg1.N) :
    (dat1 V c).flushed 9 t = ((cfg1.win 9).blk t).view.read (Elt Ideal) (G1 (V c main_v22) (V c main_v12) (V c main_v11) (V c main_v23) (V c main_v24) (V c main_v25) (V c main_v26) (V c main_v27) (V c main_arg8)) := by
  show (cfg1.win 9).cut (grid1.coords t) ((dat1 V c).after 9 t) = _
  rw [after1_9]
  unfold out1_9
  rw [View.canon_unit_zero hz]
  simp only [View.ld_unit_zero (S := S5000x128) hz, View.ld_unit_zero (S := S5000x1) hz, View.ld_unit_zero (S := S1x128) hz, View.ld_unit_zero (S := S128x64) hz, View.ld_unit_zero (S := S5000x64) hz]
  funext j
  obtain ⟨r, q, rfl⟩ : ∃ (r : Fin 5000) (q : Fin 64), j = ix2 r q := ⟨j 0, j 1, eq_ix2 j⟩
  refine (pay1a_at _ (iblk1 V c 2 t) r q).trans ?_
  rw [pay1b_at (iblk1 V c 2 t) (iblk1 V c 0 t) (iblk1 V c 1 t) (iblk1 V c 3 t) (iblk1 V c 6 t) (iblk1 V c 7 t)
    (iblk1 V c 4 t) (iblk1 V c 5 t) (iblk1 V c 8 t) r q]
  unfold z1
  rw [read2 V c t r, Finset.sum_congr rfl fun k _ => by
    rw [read0 V c t r k, read1 V c t r k, read3 V c t k, read4 V c t k, read5 V c t k, read6 V c t k, read7 V c t k, read8 V c t k q]]
  show _ = (G1 (V c main_v22) (V c main_v12) (V c main_v11) (V c main_v23) (V c main_v24) (V c main_v25) (V c main_v26) (V c main_v27) (V c main_arg8)) (((cfg1.win 9).blk t).view.emb (ix2 r q))
  rw [emb_out t r q]
  rfl

/-- An index of the array is in point `t`'s block iff each coordinate is in the block's range on its axis. -/
theorem mem_blk (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v28).slice (win1_9.rect t)).set ↔ _
  rw [View.set_slice_whole, Rect.mem_set_unit]
  exact Iff.rfl

/-- Every entry of the output array is in some point's block: the point of row `i₀` is `i₀ / 5000`. -/
theorem cover (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  let t : Fin cfg1.N := ⟨(i 0).val / 5000, by rw [show cfg1.N = 20 from N_1]; omega⟩
  have ht : t.val = (i 0).val / 5000 := rfl
  obtain ⟨-, -, -, -, -, -, -, -, -, -, -, -, -, -, -, -, -, -, e0, e1⟩ := idx_facts t
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- THE OUTPUT ARRAY AFTER THE KERNEL, whole. -/
theorem final (c : Dev nD) :
    (dat1 V c).arrAt 9 cfg1.N = G1 (V c main_v22) (V c main_v12) (V c main_v11) (V c main_v23) (V c main_v24) (V c main_v25) (V c main_v26) (V c main_v27) (V c main_arg8) :=
  (dat1 V c).arrAt_eq_of_cover 9 _ (fun t _ => flushed_eq V c t) cover

end Cert.KernelIdeal.Region1

end
-- ==== Proof.Region2.lean ====
/-
  THE LAST KERNEL, FROM BLOCKS TO THE WHOLE ARRAY, at the ideal values.

  The grid has 20 points; at point `t` the three row-blocked arrays (the neighbour sums, the scaled features, the
  one-column inverse-square-root degrees) are read in rows `5000·t … 5000·t + 4999`, the five one-row parameter arrays
  whole, and the output block is written back to the same rows.  An entry `(5000·t + r, q)` of the output therefore
  depends on row `5000·t + r` of the row-blocked arrays and on column `q` of the parameters: it is the rectified
  normalised entry `G2` of the arrays as the kernel finds them.  The 20 blocks cover all 100000 rows, so the array after
  the kernel is `G2` everywhere.
-/
import proofs.«133159_j49976239456719_2_alg».proof.Proof.Gen.KernelIdeal.Frame
import proofs.«133159_j49976239456719_2_alg».proof.Proof.KBody

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The array the kernel leaves, entry by entry, from the arrays it finds. -/
def G2 (S Hp : S100000x64.Idx → EReal) (dv : S100000x1.Idx → EReal) (b g be rm rv : S1x64.Idx → EReal) :
    S100000x64.Idx → EReal :=
  arr2 fun p q => post EPS ZERO (dv (ix2 p (0 : Fin 1)) * (S (ix2 p q) + Hp (ix2 p q)))
    (b (ix2 (0 : Fin 1) q)) (rm (ix2 (0 : Fin 1) q)) (rv (ix2 (0 : Fin 1) q)) (g (ix2 (0 : Fin 1) q)) (be (ix2 (0 : Fin 1) q))

/-- The block index maps over the grid: the row-blocked windows sit at block row `t`, block column 0; the parameter
    windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

theorem lt20 (t : Fin cfg2.N) : t.val < 20 := t.isLt.trans_eq N_2

/-- Global row of block row `r` at point `t`. -/
abbrev row (t : Fin cfg2.N) (r : Fin 5000) : Fin 100000 := ⟨t.val * 5000 + r.val, by have := lt20 t; have := r.isLt; omega⟩

theorem read0 (c : Dev nD) (t : Fin cfg2.N) (r : Fin 5000) (q : Fin 64) :
    iblk2 V c 0 t (ix2 r q) = (V c main_v38 : S100000x64.Idx → EReal) (ix2 (row t r) q) := by
  obtain ⟨e0, e1, -⟩ := idx_facts t
  show (V c main_v38 : S100000x64.Idx → EReal) (((cfg2.win 0).blk t).view.emb (ix2 r q)) = _
  refine congrArg _ (funext fun a => Fin.ext ?_)
  match a with
  | ⟨0, _⟩ => show win2_0.index t (0 : Fin 2) * 5000 + 1 * r.val = t.val * 5000 + r.val; omega
  | ⟨1, _⟩ => show win2_0.index t (1 : Fin 2) * 64 + 1 * q.val = q.val; omega

theorem read1 (c : Dev nD) (t : Fin cfg2.N) (r : Fin 5000) (q : Fin 64) :
    iblk2 V c 1 t (ix2 r q) = (V c main_v28 : S100000x64.Idx → EReal) (ix2 (row t r) q) := by
  obtain ⟨-, -, e0, e1, -⟩ := idx_facts t
  show (V c main_v28 : S100000x64.Idx → EReal) (((cfg2.win 1).blk t).view.emb (ix2 r q)) = _
  refine congrArg _ (funext fun a => Fin.ext ?_)
  match a with
  | ⟨0, _⟩ => show win2_1.index t (0 : Fin 2) * 5000 + 1 * r.val = t.val * 5000 + r.val; omega
  | ⟨1, _⟩ => show win2_1.index t (1 : Fin 2) * 64 + 1 * q.val = q.val; omega

theorem read2 (c : Dev nD) (t : Fin cfg2.N) (r : Fin 5000) :
    iblk2 V c 2 t (ix2 r (0 : Fin 1)) = (V c main_v11 : S100000x1.Idx → EReal) (ix2 (row t r) (0 : Fin 1)) := by
  obtain ⟨-, -, -, -, e0, e1, -⟩ := idx_facts t
  show (V c main_v11 : S100000x1.Idx → EReal) (((cfg2.win 2).blk t).view.emb (ix2 r (0 : Fin 1))) = _
  refine congrArg _ (funext fun a => Fin.ext ?_)
  match a with
  | ⟨0, _⟩ => show win2_2.index t (0 : Fin 2) * 5000 + 1 * r.val = t.val * 5000 + r.val; omega
  | ⟨1, _⟩ => show win2_2.index t (1 : Fin 2) * 1 + 1 * 0 = 0; omega

theorem read3 (c : Dev nD) (t : Fin cfg2.N) (q : Fin 64) :
    iblk2 V c 3 t (ix2 (0 : Fin 1) q) = (V c main_v39 : S1x64.Idx → EReal) (ix2 (0 : Fin 1) q) := by
  obtain ⟨-, -, -, -, -, -, e0, e1, -⟩ := idx_facts t
  show (V c main_v39 : S1x64.Idx → EReal) (((cfg2.win 3).blk t).view.emb (ix2 (0 : Fin 1) q)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * q.val = q.val; omega

theorem read4 (c : Dev nD) (t : Fin cfg2.N) (q : Fin 64) :
    iblk2 V c 4 t (ix2 (0 : Fin 1) q) = (V c main_v40 : S1x64.Idx → EReal) (ix2 (0 : Fin 1) q) := by
  obtain ⟨-, -, -, -, -, -, -, -, e0, e1, -⟩ := idx_facts t
  show (V c main_v40 : S1x64.Idx → EReal) (((cfg2.win 4).blk t).view.emb (ix2 (0 : Fin 1) q)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

theorem read5 (c : Dev nD) (t : Fin cfg2.N) (q : Fin 64) :
    iblk2 V c 5 t (ix2 (0 : Fin 1) q) = (V c main_v41 : S1x64.Idx → EReal) (ix2 (0 : Fin 1) q) := by
  obtain ⟨-, -, -, -, -, -, -, -, -, -, e0, e1, -⟩ := idx_facts t
  show (V c main_v41 : S1x64.Idx → EReal) (((cfg2.win 5).blk t).view.emb (ix2 (0 : Fin 1) q)) = _
  refine congrArg _ (funext fun a => Fin.ext ?_)
  match a with
  | ⟨0, _⟩ => show win2_5.index t (0 : Fin 2) * 1 + 1 * 0 = 0; omega
  | ⟨1, _⟩ => show win2_5.index t (1 : Fin 2) * 64 + 1 * q.val = q.val; omega

theorem read6 (c : Dev nD) (t : Fin cfg2.N) (q : Fin 64) :
    iblk2 V c 6 t (ix2 (0 : Fin 1) q) = (V c main_v42 : S1x64.Idx → EReal) (ix2 (0 : Fin 1) q) := by
  obtain ⟨-, -, -, -, -, -, -, -, -, -, -, -, e0, e1, -⟩ := idx_facts t
  show (V c main_v42 : S1x64.Idx → EReal) (((cfg2.win 6).blk t).view.emb (ix2 (0 : Fin 1) q)) = _
  refine congrArg _ (funext fun a => Fin.ext ?_)
  match a with
  | ⟨0, _⟩ => show win2_6.index t (0 : Fin 2) * 1 + 1 * 0 = 0; omega
  | ⟨1, _⟩ => show win2_6.index t (1 : Fin 2) * 64 + 1 * q.val = q.val; omega

theorem read7 (c : Dev nD) (t : Fin cfg2.N) (q : Fin 64) :
    iblk2 V c 7 t (ix2 (0 : Fin 1) q) = (V c main_v43 : S1x64.Idx → EReal) (ix2 (0 : Fin 1) q) := by
  obtain ⟨-, -, -, -, -, -, -, -, -, -, -, -, -, -, e0, e1, -⟩ := idx_facts t
  show (V c main_v43 : S1x64.Idx → EReal) (((cfg2.win 7).blk t).view.emb (ix2 (0 : Fin 1) q)) = _
  refine congrArg _ (funext fun a => Fin.ext ?_)
  match a with
  | ⟨0, _⟩ => show win2_7.index t (0 : Fin 2) * 1 + 1 * 0 = 0; omega
  | ⟨1, _⟩ => show win2_7.index t (1 : Fin 2) * 64 + 1 * q.val = q.val; omega

/-- Where entry `(r, q)` of the output block at point `t` sits in the output array. -/
theorem emb8 (t : Fin cfg2.N) (r : Fin 5000) (q : Fin 64) :
    ((cfg2.win 8).blk t).view.emb (ix2 r q) = (ix2 (row t r) q : S100000x64.Idx) := by
  obtain ⟨-, -, -, -, -, -, -, -, -, -, -, -, -, -, -, -, e0, e1⟩ := idx_facts t
  refine funext fun a => Fin.ext ?_
  match a with
  | ⟨0, _⟩ => show win2_8.index t (0 : Fin 2) * 5000 + 1 * r.val = t.val * 5000 + r.val; omega
  | ⟨1, _⟩ => show win2_8.index t (1 : Fin 2) * 64 + 1 * q.val = q.val; omega

/-- WHAT POINT `t` WRITES BACK is block `t` of `G2` of the arrays as the kernel finds them. -/
theorem flushed_eq (c : Dev nD) (t : Fin cfg2.N) :
    (dat2 V c).flushed 8 t = ((cfg2.win 8).blk t).view.read (Elt Ideal)
      (G2 (V c main_v38) (V c main_v28) (V c main_v11) (V c main_v39) (V c main_v40) (V c main_v41) (V c main_v42) (V c main_v43)) := by
  show (cfg2.win 8).cut (grid2.coords t) ((dat2 V c).after 8 t) = _
  rw [after2_8]
  unfold out2_8
  rw [View.canon_unit_zero hz]
  simp only [View.ld_unit_zero (S := S5000x64) hz, View.ld_unit_zero (S := S5000x1) hz, View.ld_unit_zero (S := S1x64) hz]
  funext j
  obtain ⟨r, q, rfl⟩ : ∃ (r : Fin 5000) (q : Fin 64), j = ix2 r q := ⟨j 0, j 1, eq_ix2 j⟩
  refine (pay2_at (iblk2 V c 2 t) (iblk2 V c 0 t) (iblk2 V c 1 t) (iblk2 V c 3 t) (iblk2 V c 6 t) (iblk2 V c 7 t)
    (iblk2 V c 4 t) (iblk2 V c 5 t) r q).trans ?_
  rw [read0 V c t r q, read1 V c t r q, read2 V c t r, read3 V c t q, read4 V c t q, read5 V c t q, read6 V c t q, read7 V c t q]
  show _ = G2 (V c main_v38) (V c main_v28) (V c main_v11) (V c main_v39) (V c main_v40) (V c main_v41) (V c main_v42) (V c main_v43)
    (((cfg2.win 8).blk t).view.emb (ix2 r q))
  rw [emb8 t r q]
  rfl

/-- An index of the array is in point `t`'s block iff each coordinate is in the block's range on its axis. -/
theorem mem_blk (t : Fin cfg2.N) (i : S100000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v44).slice (win2_8.rect t)).set ↔ _
  rw [View.set_slice_whole, Rect.mem_set_unit]
  exact Iff.rfl

/-- Every entry of the output array is in some point's block: the point of row `i₀` is `i₀ / 5000`. -/
theorem cover (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  let t : Fin cfg2.N := ⟨(i 0).val / 5000, by rw [show cfg2.N = 20 from N_2]; omega⟩
  have ht : t.val = (i 0).val / 5000 := rfl
  obtain ⟨-, -, -, -, -, -, -, -, -, -, -, -, -, -, -, -, e0, e1⟩ := idx_facts t
  refine ⟨t, flush2_8 t, ?_⟩
  rw [mem_blk]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 64 ≤ (i 1).val ∧ (i 1).val < win2_8.index t (1 : Fin 2) * 64 + 64; omega

/-- THE OUTPUT ARRAY AFTER THE KERNEL, whole. -/
theorem final (c : Dev nD) :
    (dat2 V c).arrAt 8 cfg2.N
      = G2 (V c main_v38) (V c main_v28) (V c main_v11) (V c main_v39) (V c main_v40) (V c main_v41) (V c main_v42) (V c main_v43) :=
  (dat2 V c).arrAt_eq_of_cover 8 _ (fun t _ => flushed_eq V c t) cover

end Cert.KernelIdeal.Region2

end
-- ==== Proof.KHost.lean ====
/-
  THE THREE-KERNEL PROGRAM'S RESULT AS ONE TERM OF THE ARGUMENT ARRAYS, at the ideal values.

  Between the launch and the return the program's buffers pass six boundaries: a host stretch, the first kernel, a host
  stretch, the middle kernel, a host stretch, the last kernel.  A host stretch leaves each buffer it writes at its
  operation's value of the buffers it reads and every other buffer alone; a kernel leaves its output array at the
  whole-array function of the arrays it finds (the three region modules) and every other buffer alone.  Followed from
  the launch memory:
  • the first stretch cuts the edge array into its source and destination vectors and computes the one-column array
    of inverse-square-root degrees;
  • the first kernel leaves the scaled features `h1p`;
  • the second stretch gathers their rows by source and adds them by destination (`seg128`), and recasts the five
    first-layer parameter vectors as one-row arrays;
  • the middle kernel leaves the scaled second-layer features `h2p`;
  • the third stretch does the same gather and add on 64 columns (`seg64`) and recasts the second-layer parameters;
  • the last kernel leaves the result `outK`.
-/
import proofs.«133159_j49976239456719_2_alg».proof.Proof.Region0
import proofs.«133159_j49976239456719_2_alg».proof.Proof.Region1
import proofs.«133159_j49976239456719_2_alg».proof.Proof.Region2
import Idealize.ShloMosaic.Lib.StableHlo.Run

set_option maxRecDepth 16384

noncomputable section

namespace Cert.KernelIdeal.Host

open Idealize.ShloMosaic Idealize.ShloMosaic.TcCoe Idealize.ShloMosaic.Tactic Idealize.ShloMosaic.StableHlo
open Idealize.ShloMosaic.ValueIdx Idealize.SL.Sem
open Idealize.ShloMosaic.Pipeline (Dat Cfg Window)
open Cert.KernelIdeal Cert.KernelIdeal.Gen

/-! ## The terms -/

/-- The source vector: row 0 of the edge array. -/
def srcK (x1 : IVec S2x1600000 32) : IVec S1600000 32 :=
  shapeCast S1600000 (extractStridedSlice S1x1600000 ![0, 0] x1 slices_S2x1600000_S1x1600000_0_0) shapeCasts_S1x1600000_S1600000
/-- The destination vector: row 1 of the edge array. -/
def dstK (x1 : IVec S2x1600000 32) : IVec S1600000 32 :=
  shapeCast S1600000 (extractStridedSlice S1x1600000 ![1, 0] x1 slices_S2x1600000_S1x1600000_1_0) shapeCasts_S1x1600000_S1600000
/-- The degrees' inverse square roots: ones added by destination into zeros, plus one, inverse square root. -/
def dinvVec (x1 : IVec S2x1600000 32) : FVec Ideal S100000 .f32 :=
  Host.rsqrt
    (addf
      (Host.scatterAdd scatter_S100000_S1600000x1_S1600000_n_0_0_1
        (broadcastInDim S100000 ![] bcast_S_S100000 (constant S_ .f32 0x00000000#32))
        (broadcastInDim S1600000x1 ![0] bcast_S1600000_S1600000x1_0 (dstK x1))
        (broadcastInDim S1600000 ![] bcast_S_S1600000 (constant S_ .f32 0x3F800000#32)))
      (broadcastInDim S100000 ![] bcast_S_S100000 (constant S_ .f32 0x3F800000#32)))
/-- The same as a one-column array. -/
def dinvCol (x1 : IVec S2x1600000 32) : FVec Ideal S100000x1 .f32 :=
  shapeCast S100000x1 (dinvVec x1) shapeCasts_S100000_S100000x1
/-- The wrap of negative indices, on a whole index vector. -/
def wrapK (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v
/-- Rows gathered by source and added by destination into zeros, 128 columns. -/
def seg128 (Hp : FVec Ideal S100000x128 .f32) (sv dv : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dv)
    (Host.gather gather_S100000x128_S1600000x1_S1600000x128_1_0_n_n_0_1_1128 Hp
      (broadcastInDim S1600000x1 ![0] bcast_S1600000_S1600000x1_0 (wrapK sv)))
/-- The same on 64 columns. -/
def seg64 (Hp : FVec Ideal S100000x64 .f32) (sv dv : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dv)
    (Host.gather gather_S100000x64_S1600000x1_S1600000x64_1_0_n_n_0_1_164 Hp
      (broadcastInDim S1600000x1 ![0] bcast_S1600000_S1600000x1_0 (wrapK sv)))
/-- A parameter vector as a one-row array. -/
def row128 (x : FVec Ideal S128 .f32) : FVec Ideal S1x128 .f32 := shapeCast S1x128 x shapeCasts_S128_S1x128
def row64 (x : FVec Ideal S64 .f32) : FVec Ideal S1x64 .f32 := shapeCast S1x64 x shapeCasts_S64_S1x64

/-- The first kernel's output. -/
def h1p (x0 : FVec Ideal S100000x128 .f32) (x1 : IVec S2x1600000 32) (x2 : FVec Ideal S128x128 .f32) : FVec Ideal S100000x128 .f32 :=
  Region0.G0 x0 x2 (dinvCol x1)
/-- The middle kernel's output. -/
def h2p (x0 : FVec Ideal S100000x128 .f32) (x1 : IVec S2x1600000 32) (x2 : FVec Ideal S128x128 .f32)
    (x3 x4 x5 x6 x7 : FVec Ideal S128 .f32) (x8 : FVec Ideal S128x64 .f32) : FVec Ideal S100000x64 .f32 :=
  Region1.G1 (seg128 (h1p x0 x1 x2) (srcK x1) (dstK x1)) (h1p x0 x1 x2) (dinvCol x1)
    (row128 x3) (row128 x4) (row128 x5) (row128 x6) (row128 x7) x8
/-- The last kernel's output: the program's result. -/
def outK (x0 : FVec Ideal S100000x128 .f32) (x1 : IVec S2x1600000 32) (x2 : FVec Ideal S128x128 .f32)
    (x3 x4 x5 x6 x7 : FVec Ideal S128 .f32) (x8 : FVec Ideal S128x64 .f32) (x9 x10 x11 x12 x13 : FVec Ideal S64 .f32) :
    FVec Ideal S100000x64 .f32 :=
  Region2.G2 (seg64 (h2p x0 x1 x2 x3 x4 x5 x6 x7 x8) (srcK x1) (dstK x1)) (h2p x0 x1 x2 x3 x4 x5 x6 x7 x8) (dinvCol x1)
    (row64 x9) (row64 x10) (row64 x11) (row64 x12) (row64 x13)

/-! ## The boundaries -/

variable (m : (ℓ : Loc nD τ sig) → Buf (Elt Ideal) ℓ) (ρ : Dev nD → PrngReg) (c : Dev nD)

/-- A host stretch's effect on one buffer, by evaluating the stretch there. -/
macro "host_read" : tactic => `(tactic| (after_results_simp <;> rfl))

/-! ### After the first stretch -/

theorem W1_v1 : W1 m ρ c (Proc.devRef .tc main_v1) = srcK (m ((c : Thread nD τ).loc main_arg1)) := by
  show StableHlo.after hostOps0 (W0 m ρ c) (Proc.devRef .tc main_v1) = _
  host_read
theorem W1_v3 : W1 m ρ c (Proc.devRef .tc main_v3) = dstK (m ((c : Thread nD τ).loc main_arg1)) := by
  show StableHlo.after hostOps0 (W0 m ρ c) (Proc.devRef .tc main_v3) = _
  host_read
theorem W1_v11 : W1 m ρ c (Proc.devRef .tc main_v11) = dinvCol (m ((c : Thread nD τ).loc main_arg1)) := by
  show StableHlo.after hostOps0 (W0 m ρ c) (Proc.devRef .tc main_v11) = _
  host_read
theorem W1_arg0 : W1 m ρ c (Proc.devRef .tc main_arg0) = m ((c : Thread nD τ).loc main_arg0) := by
  show StableHlo.after hostOps0 (W0 m ρ c) (Proc.devRef .tc main_arg0) = _
  host_read
theorem W1_arg2 : W1 m ρ c (Proc.devRef .tc main_arg2) = m ((c : Thread nD τ).loc main_arg2) := by
  show StableHlo.after hostOps0 (W0 m ρ c) (Proc.devRef .tc main_arg2) = _
  host_read
theorem W1_arg3 : W1 m ρ c (Proc.devRef .tc main_arg3) = m ((c : Thread nD τ).loc main_arg3) := by
  show StableHlo.after hostOps0 (W0 m ρ c) (Proc.devRef .tc main_arg3) = _
  host_read
theorem W1_arg4 : W1 m ρ c (Proc.devRef .tc main_arg4) = m ((c : Thread nD τ).loc main_arg4) := by
  show StableHlo.after hostOps0 (W0 m ρ c) (Proc.devRef .tc main_arg4) = _
  host_read
theorem W1_arg5 : W1 m ρ c (Proc.devRef .tc main_arg5) = m ((c : Thread nD τ).loc main_arg5) := by
  show StableHlo.after hostOps0 (W0 m ρ c) (Proc.devRef .tc main_arg5) = _
  host_read
theorem W1_arg6 : W1 m ρ c (Proc.devRef .tc main_arg6) = m ((c : Thread nD τ).loc main_arg6) := by
  show StableHlo.after hostOps0 (W0 m ρ c) (Proc.devRef .tc main_arg6) = _
  host_read
theorem W1_arg7 : W1 m ρ c (Proc.devRef .tc main_arg7) = m ((c : Thread nD τ).loc main_arg7) := by
  show StableHlo.after hostOps0 (W0 m ρ c) (Proc.devRef .tc main_arg7) = _
  host_read
theorem W1_arg8 : W1 m ρ c (Proc.devRef .tc main_arg8) = m ((c : Thread nD τ).loc main_arg8) := by
  show StableHlo.after hostOps0 (W0 m ρ c) (Proc.devRef .tc main_arg8) = _
  host_read
theorem W1_arg9 : W1 m ρ c (Proc.devRef .tc main_arg9) = m ((c : Thread nD τ).loc main_arg9) := by
  show StableHlo.after hostOps0 (W0 m ρ c) (Proc.devRef .tc main_arg9) = _
  host_read
theorem W1_arg10 : W1 m ρ c (Proc.devRef .tc main_arg10) = m ((c : Thread nD τ).loc main_arg10) := by
  show StableHlo.after hostOps0 (W0 m ρ c) (Proc.devRef .tc main_arg10) = _
  host_read
theorem W1_arg11 : W1 m ρ c (Proc.devRef .tc main_arg11) = m ((c : Thread nD τ).loc main_arg11) := by
  show StableHlo.after hostOps0 (W0 m ρ c) (Proc.devRef .tc main_arg11) = _
  host_read
theorem W1_arg12 : W1 m ρ c (Proc.devRef .tc main_arg12) = m ((c : Thread nD τ).loc main_arg12) := by
  show StableHlo.after hostOps0 (W0 m ρ c) (Proc.devRef .tc main_arg12) = _
  host_read
theorem W1_arg13 : W1 m ρ c (Proc.devRef .tc main_arg13) = m ((c : Thread nD τ).loc main_arg13) := by
  show StableHlo.after hostOps0 (W0 m ρ c) (Proc.devRef .tc main_arg13) = _
  host_read

/-! ### After the first kernel -/

theorem W2_v1 : W2 m ρ c (Proc.devRef .tc main_v1) = srcK (m ((c : Thread nD τ).loc main_arg1)) := (W2_of_ne m ρ c main_v1 (by decide)).trans (W1_v1 m ρ c)
theorem W2_v3 : W2 m ρ c (Proc.devRef .tc main_v3) = dstK (m ((c : Thread nD τ).loc main_arg1)) := (W2_of_ne m ρ c main_v3 (by decide)).trans (W1_v3 m ρ c)
theorem W2_arg3 : W2 m ρ c (Proc.devRef .tc main_arg3) = m ((c : Thread nD τ).loc main_arg3) := (W2_of_ne m ρ c main_arg3 (by decide)).trans (W1_arg3 m ρ c)
theorem W2_arg4 : W2 m ρ c (Proc.devRef .tc main_arg4) = m ((c : Thread nD τ).loc main_arg4) := (W2_of_ne m ρ c main_arg4 (by decide)).trans (W1_arg4 m ρ c)
theorem W2_arg5 : W2 m ρ c (Proc.devRef .tc main_arg5) = m ((c : Thread nD τ).loc main_arg5) := (W2_of_ne m ρ c main_arg5 (by decide)).trans (W1_arg5 m ρ c)
theorem W2_arg6 : W2 m ρ c (Proc.devRef .tc main_arg6) = m ((c : Thread nD τ).loc main_arg6) := (W2_of_ne m ρ c main_arg6 (by decide)).trans (W1_arg6 m ρ c)
theorem W2_arg7 : W2 m ρ c (Proc.devRef .tc main_arg7) = m ((c : Thread nD τ).loc main_arg7) := (W2_of_ne m ρ c main_arg7 (by decide)).trans (W1_arg7 m ρ c)
theorem W2_arg8 : W2 m ρ c (Proc.devRef .tc main_arg8) = m ((c : Thread nD τ).loc main_arg8) := (W2_of_ne m ρ c main_arg8 (by decide)).trans (W1_arg8 m ρ c)
theorem W2_arg9 : W2 m ρ c (Proc.devRef .tc main_arg9) = m ((c : Thread nD τ).loc main_arg9) := (W2_of_ne m ρ c main_arg9 (by decide)).trans (W1_arg9 m ρ c)
theorem W2_arg10 : W2 m ρ c (Proc.devRef .tc main_arg10) = m ((c : Thread nD τ).loc main_arg10) := (W2_of_ne m ρ c main_arg10 (by decide)).trans (W1_arg10 m ρ c)
theorem W2_arg11 : W2 m ρ c (Proc.devRef .tc main_arg11) = m ((c : Thread nD τ).loc main_arg11) := (W2_of_ne m ρ c main_arg11 (by decide)).trans (W1_arg11 m ρ c)
theorem W2_arg12 : W2 m ρ c (Proc.devRef .tc main_arg12) = m ((c : Thread nD τ).loc main_arg12) := (W2_of_ne m ρ c main_arg12 (by decide)).trans (W1_arg12 m ρ c)
theorem W2_arg13 : W2 m ρ c (Proc.devRef .tc main_arg13) = m ((c : Thread nD τ).loc main_arg13) := (W2_of_ne m ρ c main_arg13 (by decide)).trans (W1_arg13 m ρ c)
theorem W2_v11 : W2 m ρ c (Proc.devRef .tc main_v11) = dinvCol (m ((c : Thread nD τ).loc main_arg1)) :=
  (W2_arr m ρ c 2).trans (((dat0 (V1 m ρ) c).arrAt_in 2 rfl _).trans ((A_eq0 (V1 m ρ) c 2).trans (W1_v11 m ρ c)))
theorem W2_v12 : W2 m ρ c (Proc.devRef .tc main_v12) = h1p (m ((c : Thread nD τ).loc main_arg0)) (m ((c : Thread nD τ).loc main_arg1)) (m ((c : Thread nD τ).loc main_arg2)) := by
  refine ((W2_arr m ρ c 3).trans (Region0.final (V1 m ρ) c)).trans ?_
  show Region0.G0 (W1 m ρ c (Proc.devRef .tc main_arg0)) (W1 m ρ c (Proc.devRef .tc main_arg2)) (W1 m ρ c (Proc.devRef .tc main_v11)) = _
  rw [W1_arg0, W1_arg2, W1_v11]
  rfl

/-! ### After the second stretch -/

theorem W3_v22 : W3 m ρ c (Proc.devRef .tc main_v22) = seg128 (h1p (m ((c : Thread nD τ).loc main_arg0)) (m ((c : Thread nD τ).loc main_arg1)) (m ((c : Thread nD τ).loc main_arg2))) (srcK (m ((c : Thread nD τ).loc main_arg1))) (dstK (m ((c : Thread nD τ).loc main_arg1))) := by
  show StableHlo.after hostOps1 (W2 m ρ c) (Proc.devRef .tc main_v22) = _
  after_results_simp
  rw [W2_v12, W2_v1, W2_v3]
  rfl
theorem W3_v23 : W3 m ρ c (Proc.devRef .tc main_v23) = row128 (m ((c : Thread nD τ).loc main_arg3)) := by
  show StableHlo.after hostOps1 (W2 m ρ c) (Proc.devRef .tc main_v23) = _
  after_results_simp
  rw [W2_arg3]
  rfl
theorem W3_v24 : W3 m ρ c (Proc.devRef .tc main_v24) = row128 (m ((c : Thread nD τ).loc main_arg4)) := by
  show StableHlo.after hostOps1 (W2 m ρ c) (Proc.devRef .tc main_v24) = _
  after_results_simp
  rw [W2_arg4]
  rfl
theorem W3_v25 : W3 m ρ c (Proc.devRef .tc main_v25) = row128 (m ((c : Thread nD τ).loc main_arg5)) := by
  show StableHlo.after hostOps1 (W2 m ρ c) (Proc.devRef .tc main_v25) = _
  after_results_simp
  rw [W2_arg5]
  rfl
theorem W3_v26 : W3 m ρ c (Proc.devRef .tc main_v26) = row128 (m ((c : Thread nD τ).loc main_arg6)) := by
  show StableHlo.after hostOps1 (W2 m ρ c) (Proc.devRef .tc main_v26) = _
  after_results_simp
  rw [W2_arg6]
  rfl
theorem W3_v27 : W3 m ρ c (Proc.devRef .tc main_v27) = row128 (m ((c : Thread nD τ).loc main_arg7)) := by
  show StableHlo.after hostOps1 (W2 m ρ c) (Proc.devRef .tc main_v27) = _
  after_results_simp
  rw [W2_arg7]
  rfl
theorem W3_v12 : W3 m ρ c (Proc.devRef .tc main_v12) = h1p (m ((c : Thread nD τ).loc main_arg0)) (m ((c : Thread nD τ).loc main_arg1)) (m ((c : Thread nD τ).loc main_arg2)) :=
  (show StableHlo.after hostOps1 (W2 m ρ c) (Proc.devRef .tc main_v12) = W2 m ρ c (Proc.devRef .tc main_v12) from by after_results_simp).trans (W2_v12 m ρ c)
theorem W3_v11 : W3 m ρ c (Proc.devRef .tc main_v11) = dinvCol (m ((c : Thread nD τ).loc main_arg1)) :=
  (show StableHlo.after hostOps1 (W2 m ρ c) (Proc.devRef .tc main_v11) = W2 m ρ c (Proc.devRef .tc main_v11) from by after_results_simp).trans (W2_v11 m ρ c)
theorem W3_v1 : W3 m ρ c (Proc.devRef .tc main_v1) = srcK (m ((c : Thread nD τ).loc main_arg1)) :=
  (show StableHlo.after hostOps1 (W2 m ρ c) (Proc.devRef .tc main_v1) = W2 m ρ c (Proc.devRef .tc main_v1) from by after_results_simp).trans (W2_v1 m ρ c)
theorem W3_v3 : W3 m ρ c (Proc.devRef .tc main_v3) = dstK (m ((c : Thread nD τ).loc main_arg1)) :=
  (show StableHlo.after hostOps1 (W2 m ρ c) (Proc.devRef .tc main_v3) = W2 m ρ c (Proc.devRef .tc main_v3) from by after_results_simp).trans (W2_v3 m ρ c)
theorem W3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) from by after_results_simp).trans (W2_arg8 m ρ c)
theorem W3_arg9 : W3 m ρ c (Proc.devRef .tc main_arg9) = m ((c : Thread nD τ).loc main_arg9) :=
  (show StableHlo.after hostOps1 (W2 m ρ c) (Proc.devRef .tc main_arg9) = W2 m ρ c (Proc.devRef .tc main_arg9) from by after_results_simp).trans (W2_arg9 m ρ c)
theorem W3_arg10 : W3 m ρ c (Proc.devRef .tc main_arg10) = m ((c : Thread nD τ).loc main_arg10) :=
  (show StableHlo.after hostOps1 (W2 m ρ c) (Proc.devRef .tc main_arg10) = W2 m ρ c (Proc.devRef .tc main_arg10) from by after_results_simp).trans (W2_arg10 m ρ c)
theorem W3_arg11 : W3 m ρ c (Proc.devRef .tc main_arg11) = m ((c : Thread nD τ).loc main_arg11) :=
  (show StableHlo.after hostOps1 (W2 m ρ c) (Proc.devRef .tc main_arg11) = W2 m ρ c (Proc.devRef .tc main_arg11) from by after_results_simp).trans (W2_arg11 m ρ c)
theorem W3_arg12 : W3 m ρ c (Proc.devRef .tc main_arg12) = m ((c : Thread nD τ).loc main_arg12) :=
  (show StableHlo.after hostOps1 (W2 m ρ c) (Proc.devRef .tc main_arg12) = W2 m ρ c (Proc.devRef .tc main_arg12) from by after_results_simp).trans (W2_arg12 m ρ c)
theorem W3_arg13 : W3 m ρ c (Proc.devRef .tc main_arg13) = m ((c : Thread nD τ).loc main_arg13) :=
  (show StableHlo.after hostOps1 (W2 m ρ c) (Proc.devRef .tc main_arg13) = W2 m ρ c (Proc.devRef .tc main_arg13) from by after_results_simp).trans (W2_arg13 m ρ c)

/-! ### After the middle kernel -/

theorem W4_v28 : W4 m ρ c (Proc.devRef .tc main_v28) = h2p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine ((W4_arr m ρ c 9).trans (Region1.final (V3 m ρ) c)).trans ?_
  show Region1.G1 (W3 m ρ c (Proc.devRef .tc main_v22)) (W3 m ρ c (Proc.devRef .tc main_v12)) (W3 m ρ c (Proc.devRef .tc main_v11)) (W3 m ρ c (Proc.devRef .tc main_v23))
    (W3 m ρ c (Proc.devRef .tc main_v24)) (W3 m ρ c (Proc.devRef .tc main_v25)) (W3 m ρ c (Proc.devRef .tc main_v26)) (W3 m ρ c (Proc.devRef .tc main_v27)) (W3 m ρ c (Proc.devRef .tc main_arg8)) = _
  rw [W3_v22, W3_v12, W3_v11, W3_v23, W3_v24, W3_v25, W3_v26, W3_v27, W3_arg8]
  rfl
theorem W4_v11 : W4 m ρ c (Proc.devRef .tc main_v11) = dinvCol (m ((c : Thread nD τ).loc main_arg1)) :=
  (W4_arr m ρ c 2).trans (((dat1 (V3 m ρ) c).arrAt_in 2 rfl _).trans ((A_eq1 (V3 m ρ) c 2).trans (W3_v11 m ρ c)))
theorem W4_v1 : W4 m ρ c (Proc.devRef .tc main_v1) = srcK (m ((c : Thread nD τ).loc main_arg1)) := (W4_of_ne m ρ c main_v1 (by decide)).trans (W3_v1 m ρ c)
theorem W4_v3 : W4 m ρ c (Proc.devRef .tc main_v3) = dstK (m ((c : Thread nD τ).loc main_arg1)) := (W4_of_ne m ρ c main_v3 (by decide)).trans (W3_v3 m ρ c)
theorem W4_arg9 : W4 m ρ c (Proc.devRef .tc main_arg9) = m ((c : Thread nD τ).loc main_arg9) := (W4_of_ne m ρ c main_arg9 (by decide)).trans (W3_arg9 m ρ c)
theorem W4_arg10 : W4 m ρ c (Proc.devRef .tc main_arg10) = m ((c : Thread nD τ).loc main_arg10) := (W4_of_ne m ρ c main_arg10 (by decide)).trans (W3_arg10 m ρ c)
theorem W4_arg11 : W4 m ρ c (Proc.devRef .tc main_arg11) = m ((c : Thread nD τ).loc main_arg11) := (W4_of_ne m ρ c main_arg11 (by decide)).trans (W3_arg11 m ρ c)
theorem W4_arg12 : W4 m ρ c (Proc.devRef .tc main_arg12) = m ((c : Thread nD τ).loc main_arg12) := (W4_of_ne m ρ c main_arg12 (by decide)).trans (W3_arg12 m ρ c)
theorem W4_arg13 : W4 m ρ c (Proc.devRef .tc main_arg13) = m ((c : Thread nD τ).loc main_arg13) := (W4_of_ne m ρ c main_arg13 (by decide)).trans (W3_arg13 m ρ c)

/-! ### After the third stretch -/

theorem W5_v38 : W5 m ρ c (Proc.devRef .tc main_v38) = seg64 (h2p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (srcK (m ((c : Thread nD τ).loc main_arg1))) (dstK (m ((c : Thread nD τ).loc main_arg1))) := by
  show StableHlo.after hostOps2 (W4 m ρ c) (Proc.devRef .tc main_v38) = _
  after_results_simp
  rw [W4_v28, W4_v1, W4_v3]
  rfl
theorem W5_v39 : W5 m ρ c (Proc.devRef .tc main_v39) = row64 (m ((c : Thread nD τ).loc main_arg9)) := by
  show StableHlo.after hostOps2 (W4 m ρ c) (Proc.devRef .tc main_v39) = _
  after_results_simp
  rw [W4_arg9]
  rfl
theorem W5_v40 : W5 m ρ c (Proc.devRef .tc main_v40) = row64 (m ((c : Thread nD τ).loc main_arg10)) := by
  show StableHlo.after hostOps2 (W4 m ρ c) (Proc.devRef .tc main_v40) = _
  after_results_simp
  rw [W4_arg10]
  rfl
theorem W5_v41 : W5 m ρ c (Proc.devRef .tc main_v41) = row64 (m ((c : Thread nD τ).loc main_arg11)) := by
  show StableHlo.after hostOps2 (W4 m ρ c) (Proc.devRef .tc main_v41) = _
  after_results_simp
  rw [W4_arg11]
  rfl
theorem W5_v42 : W5 m ρ c (Proc.devRef .tc main_v42) = row64 (m ((c : Thread nD τ).loc main_arg12)) := by
  show StableHlo.after hostOps2 (W4 m ρ c) (Proc.devRef .tc main_v42) = _
  after_results_simp
  rw [W4_arg12]
  rfl
theorem W5_v43 : W5 m ρ c (Proc.devRef .tc main_v43) = row64 (m ((c : Thread nD τ).loc main_arg13)) := by
  show StableHlo.after hostOps2 (W4 m ρ c) (Proc.devRef .tc main_v43) = _
  after_results_simp
  rw [W4_arg13]
  rfl
theorem W5_v28 : W5 m ρ c (Proc.devRef .tc main_v28) = h2p (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps2 (W4 m ρ c) (Proc.devRef .tc main_v28) = W4 m ρ c (Proc.devRef .tc main_v28) from by after_results_simp).trans (W4_v28 m ρ c)
theorem W5_v11 : W5 m ρ c (Proc.devRef .tc main_v11) = dinvCol (m ((c : Thread nD τ).loc main_arg1)) :=
  (show StableHlo.after hostOps2 (W4 m ρ c) (Proc.devRef .tc main_v11) = W4 m ρ c (Proc.devRef .tc main_v11) from by after_results_simp).trans (W4_v11 m ρ c)

/-! ### After the last kernel: the result -/

/-- THE RESULT BUFFER at the last boundary is `outK` of the argument arrays as launched. -/
theorem W6_v44 : W6 m ρ c (Proc.devRef .tc main_v44) = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine ((W6_arr m ρ c 8).trans (Region2.final (V5 m ρ) c)).trans ?_
  show Region2.G2 (W5 m ρ c (Proc.devRef .tc main_v38)) (W5 m ρ c (Proc.devRef .tc main_v28)) (W5 m ρ c (Proc.devRef .tc main_v11)) (W5 m ρ c (Proc.devRef .tc main_v39))
    (W5 m ρ c (Proc.devRef .tc main_v40)) (W5 m ρ c (Proc.devRef .tc main_v41)) (W5 m ρ c (Proc.devRef .tc main_v42)) (W5 m ρ c (Proc.devRef .tc main_v43)) = _
  rw [W5_v38, W5_v28, W5_v11, W5_v39, W5_v40, W5_v41, W5_v42, W5_v43]
  rfl

end Cert.KernelIdeal.Host

end
-- ==== Proof.LibSegment.lean ====
/-
  ROW GATHER AND ACCUMULATING SCATTER READ AT AN INDEX.

  A graph layer gathers rows of an array [N, C] by a column of E start indices and adds E update rows
  into an array [N, C] at a column of E destination indices (x[idx] and a segment sum); the same for a vector of length N.
  Read at one index: the gather is the operand's row at the start index, read signed and clamped into [0, N - 1];
  the accumulating scatter is the operand's element plus the sum of the update rows whose destination index, read signed,
  is that row (an index outside [0, N - 1] names no row and its update is dropped).
-/
import Idealize.ShloMosaic.Lib.ValueIdx
import Idealize.ShloMosaic.PureOps.Ideal.Laws

noncomputable section

open scoped BigOperators

namespace Cert.Segment

open Idealize.ShloMosaic Idealize.ShloMosaic.ValueIdx

/-- A start index read signed and clamped into [0, N-1]. -/
def clampRow (N : ℕ) (hN : 0 < N) {w : ℕ} (b : BitVec w) : Fin N := ⟨min b.toInt.toNat (N - 1), by omega⟩

/-- The clamped row's value: the minimum of the signed reading (negative read as 0) and N - 1. -/
theorem clampRow_val (N : ℕ) (hN : 0 < N) {w : ℕ} (b : BitVec w) :
    (clampRow N hN b).val = min b.toInt.toNat (N - 1) := rfl

/-- In a rank-2 shape axis 1 is not axis 0 (a closed fact, used to decide membership in the literal axis lists). -/
theorem one_ne_zero_fin2 : (1 : Fin 2) ≠ 0 := by decide

/-- Axis 1 is not in the list holding axis 0 alone. -/
theorem one_not_mem_zero : (1 : Fin 2) ∉ [(0 : Fin 2)] := fun h => one_ne_zero_fin2 (List.mem_singleton.mp h)

/-! ## Gather of rows of an [N, C] array -/

/-- The dimension numbers of a row gather: operand [N, C], start indices [E, 1], result [E, C]; the result's axis 1 is
    the offset axis (a whole row of C), the operand's axis 0 is collapsed and is the one the start index names. -/
abbrev gatherRowsDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, c): the operand at row idx[e, 0], read signed and clamped into [0, N - 1], column c. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRowsDims N E C wf) x idx (ix2 e c) = x (ix2 (clampRow N hN (idx (ix2 e (0 : Fin 1)))) c) := by
  unfold Host.gather
  congr 1
  funext a
  refine Fin.ext ?_
  match a with
  | ⟨0, _⟩ =>
    show (gatherRowsDims N E C wf).start (ix2 e c) idx 0 + (gatherRowsDims N E C wf).batchCoord (ix2 e c) 0
      + (gatherRowsDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e c) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e c) idx 1 + (gatherRowsDims N E C wf).batchCoord (ix2 e c) 1
      + (gatherRowsDims N E C wf).offCoord (ix2 e c) 1 = _
    rw [GatherDims.batchCoord_eq_zero _ _ _ List.not_mem_nil]
    have h1 : (1 : Fin 2) ∈ (gatherRowsDims N E C wf).sKept :=
      (GatherDims.mem_sKept _ _).mpr ⟨one_not_mem_zero, List.not_mem_nil⟩
    unfold GatherDims.start GatherDims.offCoord
    rw [dif_neg (show ¬ (1 : Fin 2) ∈ (gatherRowsDims N E C wf).startIndexMap from one_not_mem_zero), dif_pos h1]
    simp only [Nat.add_zero, Nat.zero_add]
    rfl

/-! ## Gather of elements of a vector of length N -/

/-- The dimension numbers of an element gather: operand [N], start indices [E, 1], result [E]; no offset axis, the
    operand's one axis is collapsed and is the one the start index names. -/
abbrev gatherVecDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT e: the operand at idx[e, 0], read signed and clamped into [0, N - 1]. -/
theorem gather_vec_apply {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVecDims N E wf) x idx (ix1 e) = x (ix1 (clampRow N hN (idx (ix2 e (0 : Fin 1))))) := by
  unfold Host.gather
  congr 1
  funext a
  obtain rfl : a = 0 := Subsingleton.elim _ _
  refine Fin.ext ?_
  show (gatherVecDims N E wf).start (ix1 e) idx 0 + (gatherVecDims N E wf).batchCoord (ix1 e) 0
    + (gatherVecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N E wf).startIndexMap from List.mem_singleton.mpr rfl)]
  have hsi : (gatherVecDims N E wf).siIdx (ix1 e) ⟨List.idxOf (0 : Fin 1) (gatherVecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter's result index, in general -/

/-- An update lands at operand index i exactly when, on every axis, its start (read signed) plus its window coordinate is
    i's coordinate: the sum is then inside the operand, and outside it the update is dropped. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro heq a
      have hi := Option.some.inj heq
      have ha := congrArg (fun f => ((f a).val : ℤ)) hi
      simp only at ha
      rw [← ha, Int.toNat_of_nonneg (h a).1]
    · intro hall
      congr 1
      funext a
      refine Fin.ext ?_
      have := hall a
      show (d.start j idx a + (d.window j a : ℤ)).toNat = (i a).val
      omega
  · rename_i h
    constructor
    · intro heq; cases heq
    · intro hall
      exfalso
      apply h
      intro a
      have := hall a
      have hlt := (i a).isLt
      constructor <;> omega

/-! ## Accumulating scatter of rows into an [N, C] array -/

/-- The dimension numbers of a row scatter: operand [N, C], scatter indices [E, 1], updates [E, C]; the updates' axis 1
    is the window axis (a whole row of C), the operand's axis 0 is inserted and is the one the scatter index names. -/
abbrev scatterRowsDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update (e, c') reads its scatter index at [e, 0]. -/
theorem scatterRows_siIdx {N E C : ℕ} (wf : ScatterDims.WF ⟨2, ![N, C]⟩ ⟨2, ![E, 1]⟩ ⟨2, ![E, C]⟩ [1] [0] [0] 1)
    (e : Fin E) (c' : Fin C) (k : Fin (scatterRowsDims N E C wf).scatterDimsToOperandDims.length) :
    (scatterRowsDims N E C wf).siIdx (ix2 e c') k = ix2 e (0 : Fin 1) := by
  funext b; refine Fin.ext ?_
  match b with
  | ⟨0, _⟩ => rfl
  | ⟨1, _⟩ =>
    have hk : k.val < 1 := k.isLt
    show k.val = 0
    omega

/-- On the row axis the window starts at the scatter index read signed … -/
theorem scatterRows_start0 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 0 = (idx (ix2 e (0 : Fin 1))).toInt := by
  unfold ScatterDims.start
  rw [dif_pos (show (0 : Fin 2) ∈ (scatterRowsDims N E C wf).scatterDimsToOperandDims from List.mem_singleton.mpr rfl),
    scatterRows_siIdx]

/-- … and on the column axis at 0. -/
theorem scatterRows_start1 {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) :
    (scatterRowsDims N E C wf).start (ix2 e c') idx 1 = 0 := by
  unfold ScatterDims.start
  rw [dif_neg (show ¬ (1 : Fin 2) ∈ (scatterRowsDims N E C wf).scatterDimsToOperandDims from one_not_mem_zero)]

/-- The operand's kept axes of a row scatter: axis 1 is kept, axis 0 (inserted) is not. -/
theorem scatterRows_mem_sKept {N E C : ℕ} (wf : ScatterDims.WF ⟨2, ![N, C]⟩ ⟨2, ![E, 1]⟩ ⟨2, ![E, C]⟩ [1] [0] [0] 1)
    (a : Fin 2) : a ∈ (scatterRowsDims N E C wf).sKept ↔ a ∉ [(0 : Fin 2)] := by
  simp [ScatterDims.sKept, Shape.kept, List.mem_filter, List.mem_finRange]

/-- The window coordinate on the row axis is 0 … -/
theorem scatterRows_window0 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 0 = 0 := by
  unfold ScatterDims.window
  rw [dif_neg (fun h => ((scatterRows_mem_sKept wf 0).mp h) (List.mem_singleton.mpr rfl))]

/-- … and on the column axis the update's column. -/
theorem scatterRows_window1 {N E C : ℕ} (wf : ScatterDims.WF ⟨2, ![N, C]⟩ ⟨2, ![E, 1]⟩ ⟨2, ![E, C]⟩ [1] [0] [0] 1)
    (e : Fin E) (c' : Fin C) : (scatterRowsDims N E C wf).window (ix2 e c') 1 = c'.val := by
  unfold ScatterDims.window
  rw [dif_pos ((scatterRows_mem_sKept wf 1).mpr one_not_mem_zero)]
  rfl

/-- WHERE A ROW UPDATE LANDS: update (e, c') lands at (p, c) exactly when its scatter index idx[e, 0], read signed, is
    the row p and its column is c. -/
theorem scatterRows_resultIdx {N E C w : ℕ} (wf : ScatterDims.WF ⟨2, ![N, C]⟩ ⟨2, ![E, 1]⟩ ⟨2, ![E, C]⟩ [1] [0] [0] 1)
    (idx : IVec ⟨2, ![E, 1]⟩ w) (e : Fin E) (c' : Fin C) (p : Fin N) (c : Fin C) :
    (scatterRowsDims N E C wf).resultIdx? (ix2 e c') idx = some (ix2 p c) ↔
      ((idx (ix2 e (0 : Fin 1))).toInt = (p.val : ℤ) ∧ c' = c) := by
  rw [resultIdx?_eq_some_iff]
  constructor
  · intro hall
    have h0 := hall 0
    have h1 := hall 1
    rw [scatterRows_start0, scatterRows_window0] at h0
    rw [scatterRows_start1, scatterRows_window1] at h1
    refine ⟨?_, Fin.ext ?_⟩
    · have : (((ix2 p c : (⟨2, ![N, C]⟩ : Shape).Idx) 0).val : ℤ) = (p.val : ℤ) := rfl
      omega
    · have : (((ix2 p c : (⟨2, ![N, C]⟩ : Shape).Idx) 1).val : ℤ) = (c.val : ℤ) := rfl
      omega
  · rintro ⟨hp, rfl⟩ a
    match a with
    | ⟨0, _⟩ =>
      show (scatterRowsDims N E C wf).start (ix2 e c') idx 0 + ((scatterRowsDims N E C wf).window (ix2 e c') 0 : ℤ) = (p.val : ℤ)
      rw [scatterRows_start0, scatterRows_window0, hp]; simp
    | ⟨1, _⟩ =>
      show (scatterRowsDims N E C wf).start (ix2 e c') idx 1 + ((scatterRowsDims N E C wf).window (ix2 e c') 1 : ℤ) = (c'.val : ℤ)
      rw [scatterRows_start1, scatterRows_window1]; simp

/-- THE ACCUMULATING ROW SCATTER READ AT (p, c): the operand's element plus the sum, over the updates e whose scatter
    index read signed is the row p, of update e's column c. -/
theorem scatterAdd_rows_apply {N E C w : ℕ} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (p : Fin N) (c : Fin C) :
    Ideal.hostScatterAdd (scatterRowsDims N E C wf) x idx upd (ix2 p c) =
      x (ix2 p c) + ∑ e ∈ Finset.univ.filter (fun e : Fin E => (idx (ix2 e (0 : Fin 1))).toInt = (p.val : ℤ)), upd (ix2 e c) := by
  unfold Ideal.hostScatterAdd
  congr 1
  refine Finset.sum_nbij' (fun j : (⟨2, ![E, C]⟩ : Shape).Idx => (j 0 : Fin E)) (fun e : Fin E => ix2 e c) ?_ ?_ ?_ ?_ ?_
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    exact Finset.mem_filter.mpr ⟨Finset.mem_univ _, h.1⟩
  · intro e he
    exact Finset.mem_filter.mpr ⟨Finset.mem_univ _,
      (scatterRows_resultIdx wf idx e c p c).mpr ⟨(Finset.mem_filter.mp he).2, rfl⟩⟩
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show ix2 e c = ix2 e c'
    rw [h.2]
  · intro e _; rfl
  · intro j hj
    obtain ⟨e, c', rfl⟩ : ∃ (e : Fin E) (c' : Fin C), j = ix2 e c' := ⟨j 0, j 1, eq_ix2 j⟩
    have h := (scatterRows_resultIdx wf idx e c' p c).mp (Finset.mem_filter.mp hj).2
    show upd (ix2 e c') = upd (ix2 e c)
    rw [h.2]

/-! ## Accumulating scatter of elements into a vector of length N -/

/-- The dimension numbers of an element scatter: operand [N], scatter indices [E, 1], updates [E]; no window axis, the
    operand's one axis is inserted and is the one the scatter index names. -/
abbrev scatterVecDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e reads its scatter index at [e, 0]. -/
theorem scatterVec_siIdx {N E : ℕ} (wf : ScatterDims.WF ⟨1, ![N]⟩ ⟨2, ![E, 1]⟩ ⟨1, ![E]⟩ [] [0] [0] 1)
    (e : Fin E) (k : Fin (scatterVecDims N E wf).scatterDimsToOperandDims.length) :
    (scatterVecDims N E wf).siIdx (ix1 e) k = ix2 e (0 : Fin 1) := by
  funext b; refine Fin.ext ?_
  match b with
  | ⟨0, _⟩ => rfl
  | ⟨1, _⟩ =>
    have hk : k.val < 1 := k.isLt
    show k.val = 0
    omega

/-- The window starts at the scatter index read signed … -/
theorem scatterVec_start0 {N E w : ℕ} (wf : ScatterDims.WF ⟨1, ![N]⟩ ⟨2, ![E, 1]⟩ ⟨1, ![E]⟩ [] [0] [0] 1)
    (idx : IVec ⟨2, ![E, 1]⟩ w) (e : Fin E) :
    (scatterVecDims N E wf).start (ix1 e) idx 0 = (idx (ix2 e (0 : Fin 1))).toInt := by
  unfold ScatterDims.start
  rw [dif_pos (show (0 : Fin 1) ∈ (scatterVecDims N E wf).scatterDimsToOperandDims from List.mem_singleton.mpr rfl),
    scatterVec_siIdx]

/-- … and its window coordinate is 0: the one operand axis is inserted, not kept. -/
theorem scatterVec_window0 {N E : ℕ} (wf : ScatterDims.WF ⟨1, ![N]⟩ ⟨2, ![E, 1]⟩ ⟨1, ![E]⟩ [] [0] [0] 1)
    (e : Fin E) : (scatterVecDims N E wf).window (ix1 e) 0 = 0 := by
  unfold ScatterDims.window
  rw [dif_neg (fun h => by
    have h' : (0 : Fin 1) ∉ [(0 : Fin 1)] := by
      simpa [ScatterDims.sKept, Shape.kept, List.mem_filter, List.mem_finRange] using h
    exact h' (List.mem_singleton.mpr rfl))]

/-- WHERE AN ELEMENT UPDATE LANDS: update e lands at p exactly when its scatter index idx[e, 0], read signed, is p. -/
theorem scatterVec_resultIdx {N E w : ℕ} (wf : ScatterDims.WF ⟨1, ![N]⟩ ⟨2, ![E, 1]⟩ ⟨1, ![E]⟩ [] [0] [0] 1)
    (idx : IVec ⟨2, ![E, 1]⟩ w) (e : Fin E) (p : Fin N) :
    (scatterVecDims N E wf).resultIdx? (ix1 e) idx = some (ix1 p) ↔ (idx (ix2 e (0 : Fin 1))).toInt = (p.val : ℤ) := by
  rw [resultIdx?_eq_some_iff]
  constructor
  · intro hall
    have h0 := hall 0
    rw [scatterVec_start0, scatterVec_window0] at h0
    have : (((ix1 p : (⟨1, ![N]⟩ : Shape).Idx) 0).val : ℤ) = (p.val : ℤ) := rfl
    omega
  · intro hp a
    obtain rfl : a = 0 := Subsingleton.elim _ _
    show (scatterVecDims N E wf).start (ix1 e) idx 0 + ((scatterVecDims N E wf).window (ix1 e) 0 : ℤ) = (p.val : ℤ)
    rw [scatterVec_start0, scatterVec_window0, hp]; simp

/-- THE ACCUMULATING ELEMENT SCATTER READ AT p: the operand's element plus the sum of the updates e whose scatter index
    read signed is p. -/
theorem scatterAdd_vec_apply {N E w : ℕ} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (p : Fin N) :
    Ideal.hostScatterAdd (scatterVecDims N E wf) x idx upd (ix1 p) =
      x (ix1 p) + ∑ e ∈ Finset.univ.filter (fun e : Fin E => (idx (ix2 e (0 : Fin 1))).toInt = (p.val : ℤ)), upd (ix1 e) := by
  unfold Ideal.hostScatterAdd
  congr 1
  refine Finset.sum_nbij' (fun j : (⟨1, ![E]⟩ : Shape).Idx => (j 0 : Fin E)) (fun e : Fin E => ix1 e) ?_ ?_ ?_ ?_ ?_
  · intro j hj
    obtain ⟨e, rfl⟩ : ∃ (e : Fin E), j = ix1 e := ⟨j 0, eq_ix1 j⟩
    exact Finset.mem_filter.mpr ⟨Finset.mem_univ _, (scatterVec_resultIdx wf idx e p).mp (Finset.mem_filter.mp hj).2⟩
  · intro e he
    exact Finset.mem_filter.mpr ⟨Finset.mem_univ _, (scatterVec_resultIdx wf idx e p).mpr (Finset.mem_filter.mp he).2⟩
  · intro j _
    obtain ⟨e, rfl⟩ : ∃ (e : Fin E), j = ix1 e := ⟨j 0, eq_ix1 j⟩
    rfl
  · intro e _; rfl
  · intro j _
    obtain ⟨e, rfl⟩ : ∃ (e : Fin E), j = ix1 e := ⟨j 0, eq_ix1 j⟩
    rfl

/-! ## A start index already in range -/

/-- jax wraps a negative start index (b <s 0 ? b + N : b) before a gather; a start index whose signed value is already
    a row p < N is unchanged by the wrap and by the clamp. -/
theorem clampRow_wrap {N : ℕ} (hN : 0 < N) (b : BitVec 32) (p : Fin N) (h : b.toInt = (p.val : ℤ)) :
    clampRow N hN (Scalar.select (IntOp.cmpi .slt b 0#32) (IntOp.addi b (BitVec.ofNat 32 N)) b) = p := by
  have hslt : b.slt 0#32 = false := by
    rw [BitVec.slt]
    have h0 : (0#32 : BitVec 32).toInt = 0 := by decide
    rw [h0, h]
    exact decide_eq_false (by omega)
  have hc : IntOp.cmpi .slt b 0#32 = 0#1 := by
    show BitVec.ofBool (b.slt 0#32) = 0#1
    rw [hslt]; rfl
  rw [hc, select_zero]
  refine Fin.ext ?_
  rw [clampRow_val, h]
  have := p.isLt
  simp only [Int.toNat_natCast]
  omega

end Cert.Segment

end
-- ==== Proof.GcnNet.lean ====
/-
  THE TWO-LAYER NETWORK AS ONE FUNCTION OF THE ARGUMENT ARRAYS, at the ideal values, with the aggregation a parameter.

  From the edge array's two rows (source and destination, as 32-bit words) come, per edge `e`: the signed destination
  `dTof dstv e` that decides which node the edge contributes to; and the rows `rowOf … srcv e`, `rowOf … dstv e` a gather
  reads after the wrap of a negative index (`b <ₛ 0 ? b + N : b`) and the clamp into `[0, N-1]`.  An edge that contributes
  to node `p` has destination word `p` itself, which the wrap and the clamp leave alone (`rowOf_of_dT`).

  `net agg₁ agg₂` is: features times the first weights, aggregated by `agg₁`, normalised and rectified; times the second
  weights, aggregated by `agg₂`, normalised and rectified.  The two programs differ only in the aggregation (`aggK`
  against `aggR`), and those agree (`Cert.Gcn.agg_eq`), so the two networks are one function (`netK_eq_netR`).
-/
import proofs.«133159_j49976239456719_2_alg».proof.Proof.GcnSpec
import proofs.«133159_j49976239456719_2_alg».proof.Proof.LibSegment

noncomputable section

open scoped BigOperators

namespace Cert.Gcn

open Idealize.ShloMosaic Idealize.ShloMosaic.ValueIdx

variable {N E : ℕ}

/-- The wrap of a negative start index. -/
def wrap (N : ℕ) (b : BitVec 32) : BitVec 32 :=
  Scalar.select (IntOp.cmpi .slt b 0#32) (IntOp.addi b (BitVec.ofNat 32 N)) b

/-- The signed destination of edge `e`. -/
def dTof (dstv : (⟨1, ![E]⟩ : Shape).Idx → BitVec 32) (e : Fin E) : ℤ := (dstv (ix1 e)).toInt

/-- The row a gather reads for edge `e` of an index vector: wrapped, then clamped. -/
def rowOf (N : ℕ) (hN : 0 < N) (v : (⟨1, ![E]⟩ : Shape).Idx → BitVec 32) (e : Fin E) : Fin N :=
  Cert.Segment.clampRow N hN (wrap N (v (ix1 e)))

/-- An edge whose signed destination is the row `p` reads row `p` back. -/
theorem rowOf_of_dT (hN : 0 < N) (dstv : (⟨1, ![E]⟩ : Shape).Idx → BitVec 32) (e : Fin E) (p : Fin N)
    (h : dTof dstv e = (p.val : ℤ)) : rowOf N hN dstv e = p :=
  Cert.Segment.clampRow_wrap hN _ p h

/-- The network over two aggregations. -/
def net {K C1 C2 : ℕ}
    (agg1 : (Fin N → Fin C1 → EReal) → Fin N → Fin C1 → EReal) (agg2 : (Fin N → Fin C2 → EReal) → Fin N → Fin C2 → EReal)
    (eps zero : EReal)
    (X : (⟨2, ![N, K]⟩ : Shape).Idx → EReal) (W1 : (⟨2, ![K, C1]⟩ : Shape).Idx → EReal)
    (b1 g1 be1 rm1 rv1 : (⟨1, ![C1]⟩ : Shape).Idx → EReal) (W2 : (⟨2, ![C1, C2]⟩ : Shape).Idx → EReal)
    (b2 g2 be2 rm2 rv2 : (⟨1, ![C2]⟩ : Shape).Idx → EReal) (p : Fin N) (c : Fin C2) : EReal :=
  post eps zero
    (agg2 (fun p' c' => ∑ k : Fin C1,
        post eps zero (agg1 (fun p'' c'' => ∑ k' : Fin K, X (ix2 p'' k') * W1 (ix2 k' c'')) p' k)
          (b1 (ix1 k)) (rm1 (ix1 k)) (rv1 (ix1 k)) (g1 (ix1 k)) (be1 (ix1 k)) * W2 (ix2 k c')) p c)
    (b2 (ix1 c)) (rm2 (ix1 c)) (rv2 (ix1 c)) (g2 (ix1 c)) (be2 (ix1 c))

variable (hN : 0 < N) (srcv dstv : (⟨1, ![E]⟩ : Shape).Idx → BitVec 32)

/-- The kernel's network: rows scaled once, the destination's factor multiplied after the sum. -/
def netK {K C1 C2 : ℕ} :=
  net (N := N) (K := K) (C1 := C1) (C2 := C2) (aggK (dinv (dTof dstv)) (rowOf N hN srcv) (dTof dstv))
    (aggK (dinv (dTof dstv)) (rowOf N hN srcv) (dTof dstv))

/-- The reference's network: both end-point factors inside the sum. -/
def netR {K C1 C2 : ℕ} :=
  net (N := N) (K := K) (C1 := C1) (C2 := C2) (aggR (dinv (dTof dstv)) (rowOf N hN srcv) (dTof dstv) (rowOf N hN dstv))
    (aggR (dinv (dTof dstv)) (rowOf N hN srcv) (dTof dstv) (rowOf N hN dstv))

/-- The two networks are one function. -/
theorem netK_eq_netR {K C1 C2 : ℕ} : netK (K := K) (C1 := C1) (C2 := C2) hN srcv dstv = netR hN srcv dstv := by
  have h1 : ∀ {C : ℕ}, aggK (C := C) (dinv (dTof dstv)) (rowOf N hN srcv) (dTof dstv)
      = aggR (dinv (dTof dstv)) (rowOf N hN srcv) (dTof dstv) (rowOf N hN dstv) := fun {C} =>
    funext fun H => funext fun p => funext fun c =>
      agg_eq _ (dinv_nonneg_ne_top (dTof dstv)) _ _ _ (fun e p h => rowOf_of_dT hN dstv e p h) H p c
  unfold netK netR
  rw [h1, h1]

end Cert.Gcn

end
-- ==== Proof.LibGcnOps.lean ====
/-
  THE HOST OPERATION COMPOSITIONS OF A GRAPH-CONVOLUTION LAYER, READ AT ONE ENTRY.

  A layer's neighbour sum is printed as a composition of host operations over arrays: the edge list's source and
  destination columns are wrapped (a negative index has N added), set up as a column [E, 1] of start indices, rows are
  gathered by the sources and added into an array of zeros at the destinations (a segment sum). The degree is the same
  accumulation of ones into a vector of zeros, plus one, and its inverse square root the normalising factor.
  Each lemma reads one such composition at one entry, for all extents N, E, C, at the ideal values (extended reals):
  the entry is a sum over the edges whose signed destination is the node, of the gathered row's entry.
-/
import proofs.«133159_j49976239456719_2_alg».proof.Proof.LibSegment
import proofs.«133159_j49976239456719_2_alg».proof.Proof.GcnNet
import proofs.«133159_j49976239456719_2_alg».proof.Proof.LibNormSum
import Idealize.ShloMosaic.Lib.Pipeline.Value
import Idealize.ShloMosaic.Lib.ValueIdx
import Idealize.ShloMosaic.PureOps.Ideal.Laws

noncomputable section

open scoped BigOperators

namespace Cert.GcnOps

open Idealize.ShloMosaic Idealize.ShloMosaic.ValueIdx Cert.Segment Cert.Gcn

/-! ## Broadcasts read at an index -/

/-- A vector [E] set up as a column [E, 1]: entry (e, u) is the vector's entry e (when E = 1 the one entry). -/
theorem bcast_col_apply {α : Type} {E : ℕ} (v : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h v (ix2 e u) = v (ix1 e) := by
  refine broadcastInDim_apply _ h v (ix2 e u) (ix1 e) (fun a => ?_)
  match a with
  | ⟨0, _⟩ =>
    show e.val = if E = 1 then 0 else e.val
    have := e.isLt
    split_ifs <;> omega

/-- A scalar broadcast to any shape reads the scalar everywhere. -/
theorem bcast_scalar_apply {α : Type} {s : Shape} (x : (⟨0, ![]⟩ : Shape).Idx → α) (h : (⟨0, ![]⟩ : Shape).BroadcastsInDim s ![]) (i : s.Idx) :
    broadcastInDim s ![] h x i = x ix0 :=
  broadcastInDim_apply _ h x i ix0 (fun a => a.elim0)

/-- A column [E, 1] stretched to rows [E, C]: entry (e, c) is the column's entry (e, 0). -/
theorem bcast_rows_apply {α : Type} {E C : ℕ} (v : (⟨2, ![E, 1]⟩ : Shape).Idx → α)
    (h : (⟨2, ![E, 1]⟩ : Shape).BroadcastsInDim ⟨2, ![E, C]⟩ ![0, 1]) (e : Fin E) (c : Fin C) :
    broadcastInDim ⟨2, ![E, C]⟩ ![0, 1] h v (ix2 e c) = v (ix2 e (0 : Fin 1)) := by
  refine broadcastInDim_apply _ h v (ix2 e c) (ix2 e (0 : Fin 1)) (fun a => ?_)
  match a with
  | ⟨0, _⟩ =>
    show e.val = if E = 1 then 0 else e.val
    have := e.isLt
    split_ifs <;> omega
  | ⟨1, _⟩ =>
    show 0 = if (1 : ℕ) = 1 then 0 else c.val
    rw [if_pos rfl]

/-! ## The wrap of a vector of start indices -/

/-- The wrap of every entry of an index vector: a negative entry (signed) has N added, the others are kept. -/
def wrapVec {E : ℕ} (N : ℕ) (v : IVec ⟨1, ![E]⟩ 32) (h0 : (⟨0, ![]⟩ : Shape).BroadcastsInDim ⟨1, ![E]⟩ ![]) : IVec ⟨1, ![E]⟩ 32 :=
  select (cmpi .slt v (broadcastInDim ⟨1, ![E]⟩ ![] h0 (constantI ⟨0, ![]⟩ 32 0#32)))
    (addi v (broadcastInDim ⟨1, ![E]⟩ ![] h0 (constantI ⟨0, ![]⟩ 32 (BitVec.ofNat 32 N)))) v

/-- Read at e it is the wrap of the e-th entry. -/
theorem wrapVec_apply {E : ℕ} (N : ℕ) (v : IVec ⟨1, ![E]⟩ 32) (h0 : (⟨0, ![]⟩ : Shape).BroadcastsInDim ⟨1, ![E]⟩ ![]) (e : Fin E) :
    wrapVec N v h0 (ix1 e) = Cert.Gcn.wrap N (v (ix1 e)) := rfl

/-- The column of wrapped start indices, read at (e, 0), is the wrap of the e-th entry. -/
theorem wrapCol_apply {E : ℕ} (N : ℕ) (v : IVec ⟨1, ![E]⟩ 32) (h0 : (⟨0, ![]⟩ : Shape).BroadcastsInDim ⟨1, ![E]⟩ ![])
    (hc : (⟨1, ![E]⟩ : Shape).BroadcastsInDim ⟨2, ![E, 1]⟩ ![0]) (e : Fin E) :
    broadcastInDim ⟨2, ![E, 1]⟩ ![0] hc (wrapVec N v h0) (ix2 e (0 : Fin 1)) = Cert.Gcn.wrap N (v (ix1 e)) := by
  rw [bcast_col_apply, wrapVec_apply]

/-! ## The edges into a node -/

/-- The edges whose destination column entry, read signed, is p are the edges into p. -/
theorem dst_filter_eq {N E : ℕ} (dstv : IVec ⟨1, ![E]⟩ 32)
    (hc : (⟨1, ![E]⟩ : Shape).BroadcastsInDim ⟨2, ![E, 1]⟩ ![0]) (p : Fin N) :
    Finset.univ.filter (fun e : Fin E =>
        (broadcastInDim ⟨2, ![E, 1]⟩ ![0] hc dstv (ix2 e (0 : Fin 1))).toInt = (p.val : ℤ)) = Cert.Gcn.into (dTof dstv) p := by
  unfold Cert.Gcn.into dTof
  refine Finset.filter_congr (fun e _ => ?_)
  rw [bcast_col_apply]

/-! ## The normalising factor -/

/-- THE INVERSE SQUARE ROOT OF THE DEGREE AT NODE p: ones accumulated into zeros at the destinations, plus one, under the
    reciprocal square root, is the factor of the edges whose signed destination is p. -/
theorem dinv_apply {N E : ℕ} (wf : ScatterDims.WF ⟨1, ![N]⟩ ⟨2, ![E, 1]⟩ ⟨1, ![E]⟩ [] [0] [0] 1)
    (dstv : IVec ⟨1, ![E]⟩ 32) (hbN : (⟨0, ![]⟩ : Shape).BroadcastsInDim ⟨1, ![N]⟩ ![]) (hbE : (⟨0, ![]⟩ : Shape).BroadcastsInDim ⟨1, ![E]⟩ ![])
    (hc : (⟨1, ![E]⟩ : Shape).BroadcastsInDim ⟨2, ![E, 1]⟩ ![0]) (p : Fin N) :
    Host.rsqrt (F := Ideal) (addf (Host.scatterAdd (scatterVecDims N E wf)
        (broadcastInDim ⟨1, ![N]⟩ ![] hbN (constant ⟨0, ![]⟩ .f32 0x00000000#32))
        (broadcastInDim ⟨2, ![E, 1]⟩ ![0] hc dstv)
        (broadcastInDim ⟨1, ![E]⟩ ![] hbE (constant ⟨0, ![]⟩ .f32 0x3F800000#32)))
      (broadcastInDim ⟨1, ![N]⟩ ![] hbN (constant ⟨0, ![]⟩ .f32 0x3F800000#32))) (ix1 p) = Cert.Gcn.dinv (dTof dstv) p := by
  show Ideal.rsqrt (Ideal.hostScatterAdd (scatterVecDims N E wf)
        (fun _ => Ideal.ofBits .f32 0x00000000#32)
        (broadcastInDim ⟨2, ![E, 1]⟩ ![0] hc dstv)
        (fun _ => Ideal.ofBits .f32 0x3F800000#32) (ix1 p) + Ideal.ofBits .f32 0x3F800000#32) = _
  rw [scatterAdd_vec_apply wf, dst_filter_eq, Ideal.ofBits_zero_f32, Cert.NormSum.one_word]
  rfl

/-! ## The neighbour sums -/

/-- THE SUM OF THE NEIGHBOURS' ROWS AT (p, c): rows gathered by the wrapped sources and added into zeros at the
    destinations; the entry is the sum, over the edges into p, of the source row's entry c. -/
theorem segK_apply {N E C : ℕ} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (Hp : FVec Ideal ⟨2, ![N, C]⟩ .f32) (srcv dstv : IVec ⟨1, ![E]⟩ 32)
    (hb0 : (⟨0, ![]⟩ : Shape).BroadcastsInDim ⟨2, ![N, C]⟩ ![]) (hbE : (⟨0, ![]⟩ : Shape).BroadcastsInDim ⟨1, ![E]⟩ ![])
    (hc : (⟨1, ![E]⟩ : Shape).BroadcastsInDim ⟨2, ![E, 1]⟩ ![0]) (p : Fin N) (c : Fin C) :
    Host.scatterAdd (scatterRowsDims N E C wfS)
        (broadcastInDim ⟨2, ![N, C]⟩ ![] hb0 (constant ⟨0, ![]⟩ .f32 0x00000000#32))
        (broadcastInDim ⟨2, ![E, 1]⟩ ![0] hc dstv)
        (Host.gather (gatherRowsDims N E C wfG) Hp (broadcastInDim ⟨2, ![E, 1]⟩ ![0] hc (wrapVec N srcv hbE))) (ix2 p c)
      = 0 + ∑ e ∈ Cert.Gcn.into (dTof dstv) p, Hp (ix2 (rowOf N hN srcv e) c) := by
  show Ideal.hostScatterAdd (scatterRowsDims N E C wfS) _ _ _ (ix2 p c) = _
  rw [scatterAdd_rows_apply wfS, dst_filter_eq, bcast_scalar_apply, constant_apply, Ideal.ofBits_zero_f32]
  congr 1
  refine Finset.sum_congr rfl (fun e _ => ?_)
  rw [gather_rows_apply hN wfG, wrapCol_apply]
  rfl

/-- THE NORMALISED SUM OF THE NEIGHBOURS' ROWS AT (p, c): each gathered source row multiplied by the product of the two
    end points' factors (gathered by the wrapped sources and the wrapped destinations), added into zeros at the
    destinations; the entry is the sum, over the edges into p, of the source row's entry c times the two factors. -/
theorem segR_apply {N E C : ℕ} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfGv : GatherDims.WF ⟨1, ![N]⟩ ⟨2, ![E, 1]⟩ ⟨1, ![E]⟩ [] [0] [] [0] [] 1 ![1])
    (hb0 : (⟨0, ![]⟩ : Shape).BroadcastsInDim ⟨2, ![N, C]⟩ ![]) (hbE : (⟨0, ![]⟩ : Shape).BroadcastsInDim ⟨1, ![E]⟩ ![])
    (hc : (⟨1, ![E]⟩ : Shape).BroadcastsInDim ⟨2, ![E, 1]⟩ ![0])
    (hrow : (⟨2, ![E, 1]⟩ : Shape).BroadcastsInDim ⟨2, ![E, C]⟩ ![0, 1])
    (H : FVec Ideal ⟨2, ![N, C]⟩ .f32) (dvv : FVec Ideal ⟨1, ![N]⟩ .f32) (srcv dstv : IVec ⟨1, ![E]⟩ 32)
    (p : Fin N) (c : Fin C) :
    Host.scatterAdd (scatterRowsDims N E C wfS)
        (broadcastInDim ⟨2, ![N, C]⟩ ![] hb0 (constant ⟨0, ![]⟩ .f32 0x00000000#32))
        (broadcastInDim ⟨2, ![E, 1]⟩ ![0] hc dstv)
        (mulf (Host.gather (gatherRowsDims N E C wfG) H (broadcastInDim ⟨2, ![E, 1]⟩ ![0] hc (wrapVec N srcv hbE)))
          (broadcastInDim ⟨2, ![E, C]⟩ ![0, 1] hrow (broadcastInDim ⟨2, ![E, 1]⟩ ![0] hc
            (mulf (Host.gather (gatherVecDims N E wfGv) dvv (broadcastInDim ⟨2, ![E, 1]⟩ ![0] hc (wrapVec N srcv hbE)))
              (Host.gather (gatherVecDims N E wfGv) dvv (broadcastInDim ⟨2, ![E, 1]⟩ ![0] hc (wrapVec N dstv hbE)))))))
        (ix2 p c)
      = 0 + ∑ e ∈ Cert.Gcn.into (dTof dstv) p,
          H (ix2 (rowOf N hN srcv e) c) * (dvv (ix1 (rowOf N hN srcv e)) * dvv (ix1 (rowOf N hN dstv e))) := by
  show Ideal.hostScatterAdd (scatterRowsDims N E C wfS) _ _ _ (ix2 p c) = _
  rw [scatterAdd_rows_apply wfS, dst_filter_eq, bcast_scalar_apply, constant_apply, Ideal.ofBits_zero_f32]
  congr 1
  refine Finset.sum_congr rfl (fun e _ => ?_)
  rw [mulf_apply, gather_rows_apply hN wfG, wrapCol_apply, bcast_rows_apply, bcast_col_apply, mulf_apply,
    gather_vec_apply hN wfGv, gather_vec_apply hN wfGv, wrapCol_apply, wrapCol_apply]
  rfl

end Cert.GcnOps

end
-- ==== Proof.KValue.lean ====
/-
  THE THREE-KERNEL PROGRAM'S RESULT IS THE NETWORK, entry by entry, at the ideal values.

  The result term `outK` nests three whole-array functions and two gather-and-add stretches.  Read at row `p`:
  • the one-column array of inverse-square-root degrees reads `dinv` of the destination vector at `p`;
  • a gather-and-add of an array `Hp` reads the sum of the rows `Hp (source row of e)` over the edges `e` into `p`, from a
    zero start;
  • the first kernel's output is the features times the first weights, times the row's factor;
  so the sum of neighbours' scaled rows plus the node's own scaled row, multiplied by the node's factor, is the
  aggregation `aggK` of the unscaled products — and the same one layer up.  A parameter vector recast as a one-row
  array reads its entry.  What remains is the definition of the network.
-/
import proofs.«133159_j49976239456719_2_alg».proof.Proof.KHost
import proofs.«133159_j49976239456719_2_alg».proof.Proof.GcnNet
import proofs.«133159_j49976239456719_2_alg».proof.Proof.LibGcnOps
import Idealize.ShloMosaic.Lib.ValueLayout

set_option maxRecDepth 16384

noncomputable section

open scoped BigOperators

namespace Cert.KernelIdeal.Host

open Idealize.ShloMosaic Idealize.ShloMosaic.ValueIdx Idealize.ShloMosaic.ColumnLayout
open Cert.KernelIdeal Cert.KernelIdeal.Gen Cert.KernelIdeal.Body Cert.Gcn Cert.GcnOps

theorem hN : 0 < 100000 := by decide

variable (x0 : FVec Ideal S100000x128 .f32) (x1 : IVec S2x1600000 32) (x2 : FVec Ideal S128x128 .f32)
  (x3 x4 x5 x6 x7 : FVec Ideal S128 .f32) (x8 : FVec Ideal S128x64 .f32) (x9 x10 x11 x12 x13 : FVec Ideal S64 .f32)

/-- The factor of row `p`. -/
abbrev dvF (p : Fin 100000) : EReal := dinv (dTof (dstK x1)) p
/-- The source row of edge `e`. -/
abbrev sI (e : Fin 1600000) : Fin 100000 := rowOf 100000 hN (srcK x1) e

/-- The one-column array of factors at row `p`. -/
theorem dinvCol_at (p : Fin 100000) : dinvCol x1 (ix2 p (0 : Fin 1)) = dvF x1 p := by
  unfold dinvCol
  rw [shapeCast_a_a1_apply]
  exact Cert.GcnOps.dinv_apply (N := 100000) (E := 1600000) _ (dstK x1) _ _ _ p

/-- A parameter vector recast as one row reads its entry. -/
theorem row128_at (x : FVec Ideal S128 .f32) (k : Fin 128) : row128 x (ix2 (0 : Fin 1) k) = x (ix1 k) := by
  unfold row128; exact shapeCast_a_1a_apply x _ (0 : Fin 1) k
theorem row64_at (x : FVec Ideal S64 .f32) (k : Fin 64) : row64 x (ix2 (0 : Fin 1) k) = x (ix1 k) := by
  unfold row64; exact shapeCast_a_1a_apply x _ (0 : Fin 1) k

/-- A gather by source and add by destination, at `(p, k)`, 128 columns. -/
theorem seg128_at (Hp : FVec Ideal S100000x128 .f32) (p : Fin 100000) (k : Fin 128) :
    seg128 Hp (srcK x1) (dstK x1) (ix2 p k) = 0 + ∑ e ∈ into (dTof (dstK x1)) p, Hp (ix2 (sI x1 e) k) := by
  unfold seg128
  exact Cert.GcnOps.segK_apply (N := 100000) (E := 1600000) (C := 128) hN _ _ Hp (srcK x1) (dstK x1) _ _ _ p k
/-- The same on 64 columns. -/
theorem seg64_at (Hp : FVec Ideal S100000x64 .f32) (p : Fin 100000) (k : Fin 64) :
    seg64 Hp (srcK x1) (dstK x1) (ix2 p k) = 0 + ∑ e ∈ into (dTof (dstK x1)) p, Hp (ix2 (sI x1 e) k) := by
  unfold seg64
  exact Cert.GcnOps.segK_apply (N := 100000) (E := 1600000) (C := 64) hN _ _ Hp (srcK x1) (dstK x1) _ _ _ p k

/-- The first layer's unscaled products. -/
abbrev H1 (p : Fin 100000) (k : Fin 128) : EReal := ∑ k' : Fin 128, x0 (ix2 p k') * x2 (ix2 k' k)

/-- The first kernel's output at `(p, k)`. -/
theorem h1p_at (p : Fin 100000) (k : Fin 128) : h1p x0 x1 x2 (ix2 p k) = H1 x0 x2 p k * dvF x1 p := by
  unfold h1p Region0.G0
  show (∑ k' : Fin 128, x0 (ix2 p k') * x2 (ix2 k' k)) * dinvCol x1 (ix2 p (0 : Fin 1)) = _
  rw [dinvCol_at]

/-- The first aggregation, as the middle kernel computes it. -/
theorem agg1_at (p : Fin 100000) (k : Fin 128) :
    dvF x1 p * (seg128 (h1p x0 x1 x2) (srcK x1) (dstK x1) (ix2 p k) + h1p x0 x1 x2 (ix2 p k))
      = aggK (dinv (dTof (dstK x1))) (rowOf 100000 hN (srcK x1)) (dTof (dstK x1)) (H1 x0 x2) p k := by
  rw [seg128_at, h1p_at, Finset.sum_congr rfl fun e _ => h1p_at x0 x1 x2 (sI x1 e) k]
  rfl

/-- The rectified normalised first layer. -/
abbrev Z1 (p : Fin 100000) (k : Fin 128) : EReal :=
  post EPS ZERO (aggK (dinv (dTof (dstK x1))) (rowOf 100000 hN (srcK x1)) (dTof (dstK x1)) (H1 x0 x2) p k)
    (x3 (ix1 k)) (x6 (ix1 k)) (x7 (ix1 k)) (x4 (ix1 k)) (x5 (ix1 k))
/-- The second layer's unscaled products. -/
abbrev H2 (p : Fin 100000) (q : Fin 64) : EReal := ∑ k : Fin 128, Z1 x0 x1 x2 x3 x4 x5 x6 x7 p k * x8 (ix2 k q)

/-- The middle kernel's output at `(p, q)`. -/
theorem h2p_at (p : Fin 100000) (q : Fin 64) :
    h2p x0 x1 x2 x3 x4 x5 x6 x7 x8 (ix2 p q) = H2 x0 x1 x2 x3 x4 x5 x6 x7 x8 p q * dvF x1 p := by
  unfold h2p Region1.G1
  show (∑ k : Fin 128, post EPS ZERO (dinvCol x1 (ix2 p (0 : Fin 1))
      * (seg128 (h1p x0 x1 x2) (srcK x1) (dstK x1) (ix2 p k) + h1p x0 x1 x2 (ix2 p k)))
      (row128 x3 (ix2 (0 : Fin 1) k)) (row128 x6 (ix2 (0 : Fin 1) k)) (row128 x7 (ix2 (0 : Fin 1) k))
      (row128 x4 (ix2 (0 : Fin 1) k)) (row128 x5 (ix2 (0 : Fin 1) k)) * x8 (ix2 k q)) * dinvCol x1 (ix2 p (0 : Fin 1)) = _
  rw [dinvCol_at]
  refine congrArg (· * dvF x1 p) (Finset.sum_congr rfl fun k _ => ?_)
  rw [agg1_at, row128_at, row128_at, row128_at, row128_at, row128_at]

/-- The second aggregation, as the last kernel computes it. -/
theorem agg2_at (p : Fin 100000) (q : Fin 64) :
    dvF x1 p * (seg64 (h2p x0 x1 x2 x3 x4 x5 x6 x7 x8) (srcK x1) (dstK x1) (ix2 p q) + h2p x0 x1 x2 x3 x4 x5 x6 x7 x8 (ix2 p q))
      = aggK (dinv (dTof (dstK x1))) (rowOf 100000 hN (srcK x1)) (dTof (dstK x1)) (H2 x0 x1 x2 x3 x4 x5 x6 x7 x8) p q := by
  rw [seg64_at, h2p_at, Finset.sum_congr rfl fun e _ => h2p_at x0 x1 x2 x3 x4 x5 x6 x7 x8 (sI x1 e) q]
  rfl

/-- THE RESULT TERM at `(p, q)` is the network with the kernel's aggregation. -/
theorem outK_apply (p : Fin 100000) (q : Fin 64) :
    outK x0 x1 x2 x3 x4 x5 x6 x7 x8 x9 x10 x11 x12 x13 (ix2 p q)
      = netK (N := 100000) (E := 1600000) (K := 128) (C1 := 128) (C2 := 64) hN (srcK x1) (dstK x1) EPS ZERO
          x0 x2 x3 x4 x5 x6 x7 x8 x9 x10 x11 x12 x13 p q := by
  unfold outK Region2.G2
  show post EPS ZERO (dinvCol x1 (ix2 p (0 : Fin 1))
      * (seg64 (h2p x0 x1 x2 x3 x4 x5 x6 x7 x8) (srcK x1) (dstK x1) (ix2 p q) + h2p x0 x1 x2 x3 x4 x5 x6 x7 x8 (ix2 p q)))
      (row64 x9 (ix2 (0 : Fin 1) q)) (row64 x12 (ix2 (0 : Fin 1) q)) (row64 x13 (ix2 (0 : Fin 1) q))
      (row64 x10 (ix2 (0 : Fin 1) q)) (row64 x11 (ix2 (0 : Fin 1) q)) = _
  rw [dinvCol_at, agg2_at, row64_at, row64_at, row64_at, row64_at, row64_at]
  rfl

end Cert.KernelIdeal.Host

end
-- ==== Proof.RefRead.lean ====
/-
  THE REFERENCE PROGRAM'S RESULT, ENTRY BY ENTRY, AS THE TWO-LAYER GRAPH NETWORK OF ITS ARGUMENTS (at the ideal values).

  The reference computes, twice over, a graph convolution followed by a batch normalisation and a rectifier.  Each
  convolution multiplies the features by a weight matrix, counts the edges into every node (plus one for the self
  loop) and takes the inverse square root of that count as the node's factor; gathers, per edge, the source row and
  the factors of both end points; adds the products into the destination's row; and adds the node's own row times
  the square of its factor.  Read at one entry (p, c) each of these stages is the corresponding term of the
  specification `Cert.Gcn.netR`:
    • the factor at node p is `dinv` of the signed destinations (`dinv_read`);
    • the sum over incoming edges plus the self-loop term is `aggR` over the product with the weights
      (`v44_read`, `v108_read`);
    • bias, running mean, inverse square root of the running variance plus ε, scale, shift and the maximum with
      zero are `post` (`v63_read`, `v127_read`): every parameter vector is broadcast along the rows, so at (p, c)
      it reads its entry c.
  The second layer recomputes the edge columns and the factor under other names; they are the same terms
  (`v65_eq`, `v67_eq`, `v75_eq`).  `ref_value` puts the two layers together.
-/
import proofs.«133159_j49976239456719_2_alg».proof.Proof.Gen.ReferenceIdeal.Read
import proofs.«133159_j49976239456719_2_alg».proof.Proof.GcnNet
import proofs.«133159_j49976239456719_2_alg».proof.Proof.LibGcnOps
import proofs.«133159_j49976239456719_2_alg».proof.Proof.LibBlockDot

noncomputable section

open scoped BigOperators

namespace Cert.ReferenceIdeal.RefValue

open Cert.ReferenceIdeal Cert.ReferenceIdeal.Gen Cert.ReferenceIdeal.Read Idealize.ShloMosaic Idealize.ShloMosaic.ValueIdx Cert.Gcn

/-- The positive number of nodes. -/
theorem hN : 0 < 100000 := by decide

/-- The type of the edge array. -/
abbrev EdgeArr := (⟨S2x1600000, .i32⟩ : BufTy).Contents (Elt Ideal)

/-- The degree factor: the reference's reciprocal square root of one plus the count of incoming edges. -/
theorem dinv_read (x1 : EdgeArr) (p : Fin 100000) :
    val_main_v11 (F := Ideal) x1 (ix1 p) = dinv (dTof (val_main_v3 (F := Ideal) x1)) p :=
  Cert.GcnOps.dinv_apply (N := 100000) (E := 1600000) scatter_S100000_S1600000x1_S1600000_n_0_0_1_wf
    (val_main_v3 (F := Ideal) x1) bcast_S_S100000 bcast_S_S1600000 bcast_S1600000_S1600000x1_0 p

/-- The second layer's source column is the first layer's. -/
theorem v65_eq (x1 : EdgeArr) : val_main_v65 (F := Ideal) x1 = val_main_v1 (F := Ideal) x1 := rfl
/-- The second layer's destination column is the first layer's. -/
theorem v67_eq (x1 : EdgeArr) : val_main_v67 (F := Ideal) x1 = val_main_v3 (F := Ideal) x1 := rfl
/-- The second layer's degree factor is the first layer's. -/
theorem v75_eq (x1 : EdgeArr) : val_main_v75 (F := Ideal) x1 = val_main_v11 (F := Ideal) x1 := rfl

/-- The first layer's product with the weights, at row `p` and column `c`. -/
theorem v4_read (x0 : (⟨S100000x128, .f32⟩ : BufTy).Contents (Elt Ideal)) (x2 : (⟨S128x128, .f32⟩ : BufTy).Contents (Elt Ideal))
    (p : Fin 100000) (c : Fin 128) :
    val_main_v4 (F := Ideal) x0 x2 (ix2 p c) = ∑ k : Fin 128, x0 (ix2 p k) * x2 (ix2 k c) :=
  Cert.BlockDot.hdot_apply none x0 x2 p c

/-- The first layer's sum over incoming edges. -/
theorem v39_read (x0 : (⟨S100000x128, .f32⟩ : BufTy).Contents (Elt Ideal)) (x1 : EdgeArr) (x2 : (⟨S128x128, .f32⟩ : BufTy).Contents (Elt Ideal))
    (p : Fin 100000) (c : Fin 128) :
    val_main_v39 (F := Ideal) x0 x1 x2 (ix2 p c)
      = 0 + ∑ e ∈ into (dTof (val_main_v3 (F := Ideal) x1)) p,
          val_main_v4 (F := Ideal) x0 x2 (ix2 (rowOf 100000 hN (val_main_v1 (F := Ideal) x1) e) c)
            * (val_main_v11 (F := Ideal) x1 (ix1 (rowOf 100000 hN (val_main_v1 (F := Ideal) x1) e))
              * val_main_v11 (F := Ideal) x1 (ix1 (rowOf 100000 hN (val_main_v3 (F := Ideal) x1) e))) :=
  Cert.GcnOps.segR_apply (N := 100000) (E := 1600000) (C := 128) hN
    scatter_S100000x128_S1600000x1_S1600000x128_1_0_0_1_wf gather_S100000x128_S1600000x1_S1600000x128_1_0_n_n_0_1_1128_wf
    gather_S100000_S1600000x1_S1600000_n_0_n_n_0_1_1_wf bcast_S_S100000x128 bcast_S_S1600000 bcast_S1600000_S1600000x1_0
    bcast_S1600000x1_S1600000x128_0_1 (val_main_v4 (F := Ideal) x0 x2) (val_main_v11 (F := Ideal) x1)
    (val_main_v1 (F := Ideal) x1) (val_main_v3 (F := Ideal) x1) p c

/-- The first layer's self-loop term. -/
theorem v43_read (x0 : (⟨S100000x128, .f32⟩ : BufTy).Contents (Elt Ideal)) (x1 : EdgeArr) (x2 : (⟨S128x128, .f32⟩ : BufTy).Contents (Elt Ideal))
    (p : Fin 100000) (c : Fin 128) :
    val_main_v43 (F := Ideal) x0 x1 x2 (ix2 p c)
      = val_main_v4 (F := Ideal) x0 x2 (ix2 p c) * (val_main_v11 (F := Ideal) x1 (ix1 p) * val_main_v11 (F := Ideal) x1 (ix1 p)) := by
  have hi : idx_main_v41 (idx_main_v42 (ix2 p c)) = ix1 p := by
    funext a; match a with | ⟨0, _⟩ => rfl
  rw [val_main_v43_apply, val_main_v42_apply, val_main_v41_apply, val_main_v40_apply, hi]
  rfl

/-- The first layer's aggregation is the specification's, over the product with the weights. -/
theorem v44_read (x0 : (⟨S100000x128, .f32⟩ : BufTy).Contents (Elt Ideal)) (x1 : EdgeArr) (x2 : (⟨S128x128, .f32⟩ : BufTy).Contents (Elt Ideal))
    (p : Fin 100000) (c : Fin 128) :
    val_main_v44 (F := Ideal) x0 x1 x2 (ix2 p c)
      = aggR (dinv (dTof (val_main_v3 (F := Ideal) x1))) (rowOf 100000 hN (val_main_v1 (F := Ideal) x1))
          (dTof (val_main_v3 (F := Ideal) x1)) (rowOf 100000 hN (val_main_v3 (F := Ideal) x1))
          (fun p' c' => ∑ k : Fin 128, x0 (ix2 p' k) * x2 (ix2 k c')) p c := by
  rw [val_main_v44_apply, v39_read, v43_read]
  simp only [v4_read, dinv_read]
  unfold aggR
  rfl

/-- A length-128 parameter vector broadcast along the rows reads its column's entry (the bias). -/
theorem v46_read (x3 : (⟨S128, .f32⟩ : BufTy).Contents (Elt Ideal)) (p : Fin 100000) (c : Fin 128) :
    val_main_v46 (F := Ideal) x3 (ix2 p c) = x3 (ix1 c) := by
  rw [val_main_v46_apply, val_main_v45_apply]
  exact congrArg x3 (funext fun a => match a with | ⟨0, _⟩ => rfl)

/-- The same for the running mean. -/
theorem v49_read (x6 : (⟨S128, .f32⟩ : BufTy).Contents (Elt Ideal)) (p : Fin 100000) (c : Fin 128) :
    val_main_v49 (F := Ideal) x6 (ix2 p c) = x6 (ix1 c) := by
  rw [val_main_v49_apply, val_main_v48_apply]
  exact congrArg x6 (funext fun a => match a with | ⟨0, _⟩ => rfl)

/-- The inverse square root of the running variance plus ε, broadcast along the rows. -/
theorem v55_read (x7 : (⟨S128, .f32⟩ : BufTy).Contents (Elt Ideal)) (p : Fin 100000) (c : Fin 128) :
    val_main_v55 (F := Ideal) x7 (ix2 p c) = Ideal.rsqrt (x7 (ix1 c) + Ideal.ofBits .f32 0x3727C5AC#32) := by
  rw [val_main_v55_apply, val_main_v54_apply, val_main_v53_apply, val_main_v52_apply, val_main_v51_apply,
    val_main_cst_8_apply]
  have hi : idx_main_v54 (idx_main_v55 (ix2 p c)) = ix1 c := funext fun a => match a with | ⟨0, _⟩ => rfl
  rw [hi]
  rfl

/-- The same for the scale. -/
theorem v58_read (x4 : (⟨S128, .f32⟩ : BufTy).Contents (Elt Ideal)) (p : Fin 100000) (c : Fin 128) :
    val_main_v58 (F := Ideal) x4 (ix2 p c) = x4 (ix1 c) := by
  rw [val_main_v58_apply, val_main_v57_apply]
  exact congrArg x4 (funext fun a => match a with | ⟨0, _⟩ => rfl)

/-- The same for the shift. -/
theorem v61_read (x5 : (⟨S128, .f32⟩ : BufTy).Contents (Elt Ideal)) (p : Fin 100000) (c : Fin 128) :
    val_main_v61 (F := Ideal) x5 (ix2 p c) = x5 (ix1 c) := by
  rw [val_main_v61_apply, val_main_v60_apply]
  exact congrArg x5 (funext fun a => match a with | ⟨0, _⟩ => rfl)

/-- The first layer's output: the aggregation, then bias, normalisation and rectifier. -/
theorem v63_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (p : Fin 100000) (c : Fin 128) :
    val_main_v63 (F := Ideal) x0 x1 x2 x3 x4 x5 x6 x7 (ix2 p c)
      = Cert.Gcn.post (Ideal.ofBits .f32 0x3727C5AC#32) (Ideal.ofBits .f32 0x00000000#32)
          (aggR (dinv (dTof (val_main_v3 (F := Ideal) x1))) (rowOf 100000 hN (val_main_v1 (F := Ideal) x1))
            (dTof (val_main_v3 (F := Ideal) x1)) (rowOf 100000 hN (val_main_v3 (F := Ideal) x1))
            (fun p' c' => ∑ k : Fin 128, x0 (ix2 p' k) * x2 (ix2 k c')) p c)
          (x3 (ix1 c)) (x6 (ix1 c)) (x7 (ix1 c)) (x4 (ix1 c)) (x5 (ix1 c)) := by
  rw [val_main_v63_apply, val_main_v62_apply, val_main_v59_apply, val_main_v56_apply, val_main_v50_apply,
    val_main_v47_apply, v44_read, v46_read, v49_read, v55_read, v58_read, v61_read, val_main_call0_v0_apply,
    val_main_call0_cst_apply]
  unfold Cert.Gcn.post
  rfl

/-- The second layer's product with the weights, at row `p` and column `c`. -/
theorem v68_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (p : Fin 100000) (c : Fin 64) :
    val_main_v68 (F := Ideal) x0 x1 x2 x3 x4 x5 x6 x7 x8 (ix2 p c)
      = ∑ k : Fin 128, val_main_v63 (F := Ideal) x0 x1 x2 x3 x4 x5 x6 x7 (ix2 p k) * x8 (ix2 k c) :=
  Cert.BlockDot.hdot_apply none (val_main_v63 (F := Ideal) x0 x1 x2 x3 x4 x5 x6 x7) x8 p c

/-- The second layer's sum over incoming edges. -/
theorem v103_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (p : Fin 100000) (c : Fin 64) :
    val_main_v103 (F := Ideal) x0 x1 x2 x3 x4 x5 x6 x7 x8 (ix2 p c)
      = 0 + ∑ e ∈ into (dTof (val_main_v3 (F := Ideal) x1)) p,
          val_main_v68 (F := Ideal) x0 x1 x2 x3 x4 x5 x6 x7 x8 (ix2 (rowOf 100000 hN (val_main_v1 (F := Ideal) x1) e) c)
            * (val_main_v11 (F := Ideal) x1 (ix1 (rowOf 100000 hN (val_main_v1 (F := Ideal) x1) e))
              * val_main_v11 (F := Ideal) x1 (ix1 (rowOf 100000 hN (val_main_v3 (F := Ideal) x1) e))) :=
  Cert.GcnOps.segR_apply (N := 100000) (E := 1600000) (C := 64) hN
    scatter_S100000x64_S1600000x1_S1600000x64_1_0_0_1_wf gather_S100000x64_S1600000x1_S1600000x64_1_0_n_n_0_1_164_wf
    gather_S100000_S1600000x1_S1600000_n_0_n_n_0_1_1_wf bcast_S_S100000x64 bcast_S_S1600000 bcast_S1600000_S1600000x1_0
    bcast_S1600000x1_S1600000x64_0_1 (val_main_v68 (F := Ideal) x0 x1 x2 x3 x4 x5 x6 x7 x8) (val_main_v11 (F := Ideal) x1)
    (val_main_v1 (F := Ideal) x1) (val_main_v3 (F := Ideal) x1) p c

/-- The second layer's self-loop term. -/
theorem v107_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (p : Fin 100000) (c : Fin 64) :
    val_main_v107 (F := Ideal) x0 x1 x2 x3 x4 x5 x6 x7 x8 (ix2 p c)
      = val_main_v68 (F := Ideal) x0 x1 x2 x3 x4 x5 x6 x7 x8 (ix2 p c)
          * (val_main_v11 (F := Ideal) x1 (ix1 p) * val_main_v11 (F := Ideal) x1 (ix1 p)) := by
  have hi : idx_main_v105 (idx_main_v106 (ix2 p c)) = ix1 p := by
    funext a; match a with | ⟨0, _⟩ => rfl
  rw [val_main_v107_apply, val_main_v106_apply, val_main_v105_apply, val_main_v104_apply, hi, v75_eq]
  rfl

/-- The second layer's aggregation is the specification's, over the product of the first layer's output with the
    second weights. -/
theorem v108_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (p : Fin 100000) (c : Fin 64) :
    val_main_v108 (F := Ideal) x0 x1 x2 x3 x4 x5 x6 x7 x8 (ix2 p c)
      = aggR (dinv (dTof (val_main_v3 (F := Ideal) x1))) (rowOf 100000 hN (val_main_v1 (F := Ideal) x1))
          (dTof (val_main_v3 (F := Ideal) x1)) (rowOf 100000 hN (val_main_v3 (F := Ideal) x1))
          (fun p' c' => ∑ k : Fin 128, val_main_v63 (F := Ideal) x0 x1 x2 x3 x4 x5 x6 x7 (ix2 p' k) * x8 (ix2 k c')) p c := by
  rw [val_main_v108_apply, v103_read, v107_read]
  simp only [v68_read, dinv_read]
  unfold aggR
  rfl

/-- A length-64 parameter vector broadcast along the rows reads its column's entry (the bias). -/
theorem v110_read (x9 : (⟨S64, .f32⟩ : BufTy).Contents (Elt Ideal)) (p : Fin 100000) (c : Fin 64) :
    val_main_v110 (F := Ideal) x9 (ix2 p c) = x9 (ix1 c) := by
  rw [val_main_v110_apply, val_main_v109_apply]
  exact congrArg x9 (funext fun a => match a with | ⟨0, _⟩ => rfl)

/-- The same for the running mean. -/
theorem v113_read (x12 : (⟨S64, .f32⟩ : BufTy).Contents (Elt Ideal)) (p : Fin 100000) (c : Fin 64) :
    val_main_v113 (F := Ideal) x12 (ix2 p c) = x12 (ix1 c) := by
  rw [val_main_v113_apply, val_main_v112_apply]
  exact congrArg x12 (funext fun a => match a with | ⟨0, _⟩ => rfl)

/-- The inverse square root of the running variance plus ε, broadcast along the rows. -/
theorem v119_read (x13 : (⟨S64, .f32⟩ : BufTy).Contents (Elt Ideal)) (p : Fin 100000) (c : Fin 64) :
    val_main_v119 (F := Ideal) x13 (ix2 p c) = Ideal.rsqrt (x13 (ix1 c) + Ideal.ofBits .f32 0x3727C5AC#32) := by
  rw [val_main_v119_apply, val_main_v118_apply, val_main_v117_apply, val_main_v116_apply, val_main_v115_apply,
    val_main_cst_19_apply]
  have hi : idx_main_v118 (idx_main_v119 (ix2 p c)) = ix1 c := funext fun a => match a with | ⟨0, _⟩ => rfl
  rw [hi]
  rfl

/-- The same for the scale. -/
theorem v122_read (x10 : (⟨S64, .f32⟩ : BufTy).Contents (Elt Ideal)) (p : Fin 100000) (c : Fin 64) :
    val_main_v122 (F := Ideal) x10 (ix2 p c) = x10 (ix1 c) := by
  rw [val_main_v122_apply, val_main_v121_apply]
  exact congrArg x10 (funext fun a => match a with | ⟨0, _⟩ => rfl)

/-- The same for the shift. -/
theorem v125_read (x11 : (⟨S64, .f32⟩ : BufTy).Contents (Elt Ideal)) (p : Fin 100000) (c : Fin 64) :
    val_main_v125 (F := Ideal) x11 (ix2 p c) = x11 (ix1 c) := by
  rw [val_main_v125_apply, val_main_v124_apply]
  exact congrArg x11 (funext fun a => match a with | ⟨0, _⟩ => rfl)

/-- The second layer's output: the aggregation, then bias, normalisation and rectifier. -/
theorem v127_read (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (x9 x10 x11 x12 x13 : (⟨S64, .f32⟩ : BufTy).Contents (Elt Ideal)) (p : Fin 100000) (c : Fin 64) :
    val_main_v127 (F := Ideal) x0 x1 x2 x3 x4 x5 x6 x7 x8 x9 x10 x11 x12 x13 (ix2 p c)
      = Cert.Gcn.post (Ideal.ofBits .f32 0x3727C5AC#32) (Ideal.ofBits .f32 0x00000000#32)
          (aggR (dinv (dTof (val_main_v3 (F := Ideal) x1))) (rowOf 100000 hN (val_main_v1 (F := Ideal) x1))
            (dTof (val_main_v3 (F := Ideal) x1)) (rowOf 100000 hN (val_main_v3 (F := Ideal) x1))
            (fun p' c' => ∑ k : Fin 128, val_main_v63 (F := Ideal) x0 x1 x2 x3 x4 x5 x6 x7 (ix2 p' k) * x8 (ix2 k c')) p c)
          (x9 (ix1 c)) (x12 (ix1 c)) (x13 (ix1 c)) (x10 (ix1 c)) (x11 (ix1 c)) := by
  rw [val_main_v127_apply, val_main_v126_apply, val_main_v123_apply, val_main_v120_apply, val_main_v114_apply,
    val_main_v111_apply, v108_read, v110_read, v113_read, v119_read, v122_read, v125_read, val_main_call1_v0_apply,
    val_main_call1_cst_apply]
  unfold Cert.Gcn.post
  rfl

/-- THE REFERENCE'S RESULT is the two-layer network of the argument arrays, with both end-point factors inside each
    layer's sum over incoming edges. -/
theorem ref_value (x0 : (⟨S100000x128, .f32⟩ : BufTy).Contents (Elt Ideal)) (x1 : EdgeArr) (x2 : (⟨S128x128, .f32⟩ : BufTy).Contents (Elt Ideal))
    (x3 x4 x5 x6 x7 : (⟨S128, .f32⟩ : BufTy).Contents (Elt Ideal)) (x8 : (⟨S128x64, .f32⟩ : BufTy).Contents (Elt Ideal))
    (x9 x10 x11 x12 x13 : (⟨S64, .f32⟩ : BufTy).Contents (Elt Ideal)) :
    val_main_v127 (F := Ideal) x0 x1 x2 x3 x4 x5 x6 x7 x8 x9 x10 x11 x12 x13
      = Cert.Gcn.arr2 (Cert.Gcn.netR (N := 100000) (E := 1600000) (K := 128) (C1 := 128) (C2 := 64) (by decide)
          (val_main_v1 (F := Ideal) x1) (val_main_v3 (F := Ideal) x1) (Ideal.ofBits .f32 0x3727C5AC#32)
          (Ideal.ofBits .f32 0x00000000#32) x0 x2 x3 x4 x5 x6 x7 x8 x9 x10 x11 x12 x13) := by
  funext i
  obtain ⟨p, c, rfl⟩ : ∃ (p : Fin 100000) (c : Fin 64), i = ix2 p c := ⟨i 0, i 1, eq_ix2 i⟩
  rw [v127_read]
  simp only [v63_read]
  rfl

end Cert.ReferenceIdeal.RefValue

end
-- ==== Proof.Claims.lean ====
/-
  THE FIVE CLAIMS.

  The three frames: the word-level program's and its idealization's are the generated frames; the reference has no
  kernel, and its frame is its run with the result dropped.  The idealization rewrote nothing, so it is preserved
  trivially.

  The equivalence at the ideal values: the three-kernel program ends with its result array at `outK` of the arguments
  (the run with the result named, then the six boundaries followed from the launch memory); the reference ends at its
  composed term, which is the network with both end-point factors inside the neighbour sum; `outK` is, entry by entry,
  the network with the destination's factor pulled out of the sum; the two networks are one function because that
  factor, the inverse square root of a degree that is at least one, is a non-negative finite number, and such a
  factor distributes over any sum of extended reals.  The two programs cut the edge array into the same source and
  destination vectors.  Nothing needs the inputs to be finite.
-/
import proofs.«133159_j49976239456719_2_alg».proof.Defs
import proofs.«133159_j49976239456719_2_alg».proof.Proof.Gen.Kernel.Frame
import proofs.«133159_j49976239456719_2_alg».proof.Proof.Gen.KernelIdeal.Frame
import proofs.«133159_j49976239456719_2_alg».proof.Proof.Gen.ReferenceIdeal.Run
import proofs.«133159_j49976239456719_2_alg».proof.Proof.Gen.ReferenceIdeal.Read
import proofs.«133159_j49976239456719_2_alg».proof.Proof.Gen.Pre_finite_inputs
import proofs.«133159_j49976239456719_2_alg».proof.Proof.KRun
import proofs.«133159_j49976239456719_2_alg».proof.Proof.KValue
import proofs.«133159_j49976239456719_2_alg».proof.Proof.RefRead

set_option maxRecDepth 16384

noncomputable section

namespace Cert.Proof.Claims

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs cut the same source vector out of the edge array. -/
theorem src_eq (x1 : IVec Cert.KernelIdeal.S2x1600000 32) :
    Cert.KernelIdeal.Host.srcK x1 = Cert.ReferenceIdeal.Read.val_main_v1 (F := Ideal) x1 := rfl
/-- And the same destination vector. -/
theorem dst_eq (x1 : IVec Cert.KernelIdeal.S2x1600000 32) :
    Cert.KernelIdeal.Host.dstK x1 = Cert.ReferenceIdeal.Read.val_main_v3 (F := Ideal) x1 := rfl

/-- The network with the reference's aggregation, as an array, is the kernel program's result term. -/
theorem net_eq (x0 : FVec Ideal Cert.KernelIdeal.S100000x128 .f32) (x1 : IVec Cert.KernelIdeal.S2x1600000 32)
    (x2 : FVec Ideal Cert.KernelIdeal.S128x128 .f32) (x3 x4 x5 x6 x7 : FVec Ideal Cert.KernelIdeal.S128 .f32)
    (x8 : FVec Ideal Cert.KernelIdeal.S128x64 .f32) (x9 x10 x11 x12 x13 : FVec Ideal Cert.KernelIdeal.S64 .f32) :
    Cert.Gcn.arr2 (Cert.Gcn.netR (N := 100000) (E := 1600000) (K := 128) (C1 := 128) (C2 := 64) (by decide)
        (Cert.ReferenceIdeal.Read.val_main_v1 (F := Ideal) x1) (Cert.ReferenceIdeal.Read.val_main_v3 (F := Ideal) x1)
        (Ideal.ofBits .f32 0x3727C5AC#32) (Ideal.ofBits .f32 0x00000000#32) x0 x2 x3 x4 x5 x6 x7 x8 x9 x10 x11 x12 x13)
      = Cert.KernelIdeal.Host.outK x0 x1 x2 x3 x4 x5 x6 x7 x8 x9 x10 x11 x12 x13 := by
  funext i
  obtain ⟨p, q, rfl⟩ : ∃ (p : Fin 100000) (q : Fin 64), i = ix2 p q := ⟨i 0, i 1, eq_ix2 i⟩
  rw [Cert.KernelIdeal.Host.outK_apply, Cert.Gcn.netK_eq_netR, src_eq, dst_eq]

/-- At the ideal values the two programs, run from memories that agree on the arguments, end with equal results. -/
theorem algebraic : Cert.algebraic_KernelIdeal_ReferenceIdeal := by
  intro m ρ m' ρ' _ hagree
  refine ⟨fun c => Cert.KernelIdeal.Host.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.Host.W6_v44 m ρ c), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13⟩ := hagree c
    rw [Cert.ReferenceIdeal.Read.val_main_v127_eq, Cert.ReferenceIdeal.RefValue.ref_value,
      h0, h1, h2, h3, h4, h5, h6, h7, h8, h9, h10, h11, h12, h13]
    exact net_eq _ _ _ _ _ _ _ _ _ _ _ _ _ _

end Cert.Proof.Claims

end
-- ==== Proof.lean ====
/-
  The certificate of a two-layer graph convolution (each layer followed by a batch normalisation and a rectifier):
  three row-tiled kernels among host gathers and scatter-adds against a plain array program.  The claims are proved
  in Proof/Claims.lean; this file gives the programs' stated facts their witnesses and lists the five claims.
-/
import proofs.«133159_j49976239456719_2_alg».proof.Defs
import proofs.«133159_j49976239456719_2_alg».proof.Proof.Gen.Kernel
import proofs.«133159_j49976239456719_2_alg».proof.Proof.Gen.KernelIdeal
import proofs.«133159_j49976239456719_2_alg».proof.Proof.Gen.ReferenceIdeal
import proofs.«133159_j49976239456719_2_alg».proof.Proof.Gen.Pre_finite_inputs
import proofs.«133159_j49976239456719_2_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
